-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v53)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v53) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v86) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part2 {F : FTy → Type} [FloatOps F] (main_arg8 : FVec F S128x128 .f32) (main_arg9 : FVec F S128x128 .f32) (main_arg10 : FVec F S128 .f32) (main_v33 : IVec S_ 1) : IVec S_ 1 :=
  let main_v34 : FVec F S128x128 .f32 := Host.absf main_arg8
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128x128 .f32 := Host.absf main_arg9
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128 .f32 := Host.absf main_arg10
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  main_v48

def fn_part1 {F : FTy → Type} [FloatOps F] (main_arg5 : FVec F S128x128 .f32) (main_arg6 : FVec F S128x128 .f32) (main_arg7 : FVec F S128 .f32) (main_arg8 : FVec F S128x128 .f32) (main_arg9 : FVec F S128x128 .f32) (main_arg10 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128x128 .f32 := Host.absf main_arg6
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_arg9 main_arg10 main_v33

def fn {F : FTy → Type} [FloatOps F] (main_arg0 : FVec F S100000x128 .f32) (main_arg1 : IVec S2x1600000 32) (main_arg2 : FVec F S128x128 .f32) (main_arg3 : FVec F S128x128 .f32) (main_arg4 : FVec F S128 .f32) (main_arg5 : FVec F S128x128 .f32) (main_arg6 : FVec F S128x128 .f32) (main_arg7 : FVec F S128 .f32) (main_arg8 : FVec F S128x128 .f32) (main_arg9 : FVec F S128x128 .f32) (main_arg10 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_arg9 main_arg10 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x128 : Shape := ⟨2, ![1600000, 128]⟩
abbrev S4000x128 : Shape := ⟨2, ![4000, 128]⟩
abbrev S4000x1 : Shape := ⟨2, ![4000, 1]⟩
abbrev S1x128 : Shape := ⟨2, ![1, 128]⟩

abbrev nBuf : Space → Nat
  | .hbm => 76
  | .vmem => 33
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128x128, .f32⟩
  | .hbm, ⟨10, _⟩ => ⟨S128, .f32⟩
  | .hbm, ⟨11, _⟩ => ⟨S1x1600000, .i32⟩
  | .hbm, ⟨12, _⟩ => ⟨S1600000, .i32⟩
  | .hbm, ⟨13, _⟩ => ⟨S1x1600000, .i32⟩
  | .hbm, ⟨14, _⟩ => ⟨S1600000, .i32⟩
  | .hbm, ⟨15, _⟩ => ⟨S_, .f32⟩
  | .hbm, ⟨16, _⟩ => ⟨S1600000, .f32⟩
  | .hbm, ⟨17, _⟩ => ⟨S_, .f32⟩
  | .hbm, ⟨18, _⟩ => ⟨S100000, .f32⟩
  | .hbm, ⟨19, _⟩ => ⟨S1600000x1, .i32⟩
  | .hbm, ⟨20, _⟩ => ⟨S100000, .f32⟩
  | .hbm, ⟨21, _⟩ => ⟨S100000x1, .f32⟩
  | .hbm, ⟨22, _⟩ => ⟨S_, .i32⟩
  | .hbm, ⟨23, _⟩ => ⟨S1600000, .i32⟩
  | .hbm, ⟨24, _⟩ => ⟨S1600000, .i1⟩
  | .hbm, ⟨25, _⟩ => ⟨S_, .i32⟩
  | .hbm, ⟨26, _⟩ => ⟨S1600000, .i32⟩
  | .hbm, ⟨27, _⟩ => ⟨S1600000, .i32⟩
  | .hbm, ⟨28, _⟩ => ⟨S1600000, .i32⟩
  | .hbm, ⟨29, _⟩ => ⟨S1600000x1, .i32⟩
  | .hbm, ⟨30, _⟩ => ⟨S1600000x128, .f32⟩
  | .hbm, ⟨31, _⟩ => ⟨S_, .f32⟩
  | .hbm, ⟨32, _⟩ => ⟨S100000x128, .f32⟩
  | .hbm, ⟨33, _⟩ => ⟨S1600000x1, .i32⟩
  | .hbm, ⟨34, _⟩ => ⟨S100000x128, .f32⟩
  | .hbm, ⟨35, _⟩ => ⟨S128x128, .f32⟩
  | .hbm, ⟨36, _⟩ => ⟨S128x128, .bf16⟩
  | .hbm, ⟨37, _⟩ => ⟨S128x128, .f32⟩
  | .hbm, ⟨38, _⟩ => ⟨S128x128, .bf16⟩
  | .hbm, ⟨39, _⟩ => ⟨S100000x128, .f32⟩
  | .hbm, ⟨40, _⟩ => ⟨S_, .i32⟩
  | .hbm, ⟨41, _⟩ => ⟨S1600000, .i32⟩
  | .hbm, ⟨42, _⟩ => ⟨S1600000, .i1⟩
  | .hbm, ⟨43, _⟩ => ⟨S_, .i32⟩
  | .hbm, ⟨44, _⟩ => ⟨S1600000, .i32⟩
  | .hbm, ⟨45, _⟩ => ⟨S1600000, .i32⟩
  | .hbm, ⟨46, _⟩ => ⟨S1600000, .i32⟩
  | .hbm, ⟨47, _⟩ => ⟨S1600000x1, .i32⟩
  | .hbm, ⟨48, _⟩ => ⟨S1600000x128, .f32⟩
  | .hbm, ⟨49, _⟩ => ⟨S_, .f32⟩
  | .hbm, ⟨50, _⟩ => ⟨S100000x128, .f32⟩
  | .hbm, ⟨51, _⟩ => ⟨S1600000x1, .i32⟩
  | .hbm, ⟨52, _⟩ => ⟨S100000x128, .f32⟩
  | .hbm, ⟨53, _⟩ => ⟨S128x128, .f32⟩
  | .hbm, ⟨54, _⟩ => ⟨S128x128, .bf16⟩
  | .hbm, ⟨55, _⟩ => ⟨S128x128, .f32⟩
  | .hbm, ⟨56, _⟩ => ⟨S128x128, .bf16⟩
  | .hbm, ⟨57, _⟩ => ⟨S100000x128, .f32⟩
  | .hbm, ⟨58, _⟩ => ⟨S_, .i32⟩
  | .hbm, ⟨59, _⟩ => ⟨S1600000, .i32⟩
  | .hbm, ⟨60, _⟩ => ⟨S1600000, .i1⟩
  | .hbm, ⟨61, _⟩ => ⟨S_, .i32⟩
  | .hbm, ⟨62, _⟩ => ⟨S1600000, .i32⟩
  | .hbm, ⟨63, _⟩ => ⟨S1600000, .i32⟩
  | .hbm, ⟨64, _⟩ => ⟨S1600000, .i32⟩
  | .hbm, ⟨65, _⟩ => ⟨S1600000x1, .i32⟩
  | .hbm, ⟨66, _⟩ => ⟨S1600000x128, .f32⟩
  | .hbm, ⟨67, _⟩ => ⟨S_, .f32⟩
  | .hbm, ⟨68, _⟩ => ⟨S100000x128, .f32⟩
  | .hbm, ⟨69, _⟩ => ⟨S1600000x1, .i32⟩
  | .hbm, ⟨70, _⟩ => ⟨S100000x128, .f32⟩
  | .hbm, ⟨71, _⟩ => ⟨S128x128, .f32⟩
  | .hbm, ⟨72, _⟩ => ⟨S128x128, .bf16⟩
  | .hbm, ⟨73, _⟩ => ⟨S128x128, .f32⟩
  | .hbm, ⟨74, _⟩ => ⟨S128x128, .bf16⟩
  | .hbm, ⟨75, _⟩ => ⟨S100000x128, .f32⟩
  | .local _ .vmem, ⟨0, _⟩ => ⟨S4000x128, .f32⟩
  | .local _ .vmem, ⟨1, _⟩ => ⟨S4000x128, .f32⟩
  | .local _ .vmem, ⟨2, _⟩ => ⟨S4000x1, .f32⟩
  | .local _ .vmem, ⟨3, _⟩ => ⟨S4000x1, .f32⟩
  | .local _ .vmem, ⟨4, _⟩ => ⟨S4000x128, .f32⟩
  | .local _ .vmem, ⟨5, _⟩ => ⟨S4000x128, .f32⟩
  | .local _ .vmem, ⟨6, _⟩ => ⟨S128x128, .bf16⟩
  | .local _ .vmem, ⟨7, _⟩ => ⟨S128x128, .bf16⟩
  | .local _ .vmem, ⟨8, _⟩ => ⟨S128, .f32⟩
  | .local _ .vmem, ⟨9, _⟩ => ⟨S4000x128, .f32⟩
  | .local _ .vmem, ⟨10, _⟩ => ⟨S4000x128, .f32⟩
  | .local _ .vmem, ⟨11, _⟩ => ⟨S4000x128, .f32⟩
  | .local _ .vmem, ⟨12, _⟩ => ⟨S4000x128, .f32⟩
  | .local _ .vmem, ⟨13, _⟩ => ⟨S4000x1, .f32⟩
  | .local _ .vmem, ⟨14, _⟩ => ⟨S4000x1, .f32⟩
  | .local _ .vmem, ⟨15, _⟩ => ⟨S4000x128, .f32⟩
  | .local _ .vmem, ⟨16, _⟩ => ⟨S4000x128, .f32⟩
  | .local _ .vmem, ⟨17, _⟩ => ⟨S128x128, .bf16⟩
  | .local _ .vmem, ⟨18, _⟩ => ⟨S128x128, .bf16⟩
  | .local _ .vmem, ⟨19, _⟩ => ⟨S128, .f32⟩
  | .local _ .vmem, ⟨20, _⟩ => ⟨S4000x128, .f32⟩
  | .local _ .vmem, ⟨21, _⟩ => ⟨S4000x128, .f32⟩
  | .local _ .vmem, ⟨22, _⟩ => ⟨S4000x128, .f32⟩
  | .local _ .vmem, ⟨23, _⟩ => ⟨S4000x128, .f32⟩
  | .local _ .vmem, ⟨24, _⟩ => ⟨S4000x1, .f32⟩
  | .local _ .vmem, ⟨25, _⟩ => ⟨S4000x1, .f32⟩
  | .local _ .vmem, ⟨26, _⟩ => ⟨S4000x128, .f32⟩
  | .local _ .vmem, ⟨27, _⟩ => ⟨S4000x128, .f32⟩
  | .local _ .vmem, ⟨28, _⟩ => ⟨S128x128, .bf16⟩
  | .local _ .vmem, ⟨29, _⟩ => ⟨S128x128, .bf16⟩
  | .local _ .vmem, ⟨30, _⟩ => ⟨S128, .f32⟩
  | .local _ .vmem, ⟨31, _⟩ => ⟨S4000x128, .f32⟩
  | .local _ .vmem, ⟨32, _⟩ => ⟨S4000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst : Ref sig .tc := ⟨.hbm, 15, rfl⟩
abbrev main_v4 : Ref sig .tc := ⟨.hbm, 16, rfl⟩
abbrev main_cst_0 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_c : Ref sig .tc := ⟨.hbm, 22, rfl⟩
abbrev main_v9 : Ref sig .tc := ⟨.hbm, 23, rfl⟩
abbrev main_v10 : Ref sig .tc := ⟨.hbm, 24, rfl⟩
abbrev main_c_1 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_cst_2 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_c_3 : Ref sig .tc := ⟨.hbm, 40, rfl⟩
abbrev main_v24 : Ref sig .tc := ⟨.hbm, 41, rfl⟩
abbrev main_v25 : Ref sig .tc := ⟨.hbm, 42, rfl⟩
abbrev main_c_4 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_cst_5 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_c_6 : Ref sig .tc := ⟨.hbm, 58, rfl⟩
abbrev main_v39 : Ref sig .tc := ⟨.hbm, 59, rfl⟩
abbrev main_v40 : Ref sig .tc := ⟨.hbm, 60, rfl⟩
abbrev main_c_7 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_cst_8 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg6_1 : Ref sig .tc := ⟨.vmem, 21, rfl⟩
abbrev cc2_stg0_0 : Ref sig .tc := ⟨.vmem, 22, rfl⟩
abbrev cc2_stg0_1 : Ref sig .tc := ⟨.vmem, 23, rfl⟩
abbrev cc2_stg1_0 : Ref sig .tc := ⟨.vmem, 24, rfl⟩
abbrev cc2_stg1_1 : Ref sig .tc := ⟨.vmem, 25, rfl⟩
abbrev cc2_stg2_0 : Ref sig .tc := ⟨.vmem, 26, rfl⟩
abbrev cc2_stg2_1 : Ref sig .tc := ⟨.vmem, 27, rfl⟩
abbrev cc2_stg3_0 : Ref sig .tc := ⟨.vmem, 28, rfl⟩
abbrev cc2_stg4_0 : Ref sig .tc := ⟨.vmem, 29, rfl⟩
abbrev cc2_stg5_0 : Ref sig .tc := ⟨.vmem, 30, rfl⟩
abbrev cc2_stg6_0 : Ref sig .tc := ⟨.vmem, 31, rfl⟩
abbrev cc2_stg6_1 : Ref sig .tc := ⟨.vmem, 32, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem6_1 : DmaSem sig := 21
abbrev cc2_sem0_0 : DmaSem sig := 22
abbrev cc2_sem0_1 : DmaSem sig := 23
abbrev cc2_sem1_0 : DmaSem sig := 24
abbrev cc2_sem1_1 : DmaSem sig := 25
abbrev cc2_sem2_0 : DmaSem sig := 26
abbrev cc2_sem2_1 : DmaSem sig := 27
abbrev cc2_sem3_0 : DmaSem sig := 28
abbrev cc2_sem4_0 : DmaSem sig := 29
abbrev cc2_sem5_0 : DmaSem sig := 30
abbrev cc2_sem6_0 : DmaSem sig := 31
abbrev cc2_sem6_1 : DmaSem sig := 32

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S4000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S4000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x128 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S4000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S4000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S4000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S128x128 .bf16 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x128 .bf16 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S4000x128 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S_S100000x128 : S_.BroadcastsInDim S100000x128 (![] : Fin 0 → Fin S100000x128.rank)
  transposes_S128x128_S128x128_1_0 : S128x128.Transposes [1, 0] S128x128
  bitsLt_bf16_f32 : FTy.bits .bf16 < FTy.bits .f32
  inb_S4000x1_S4000x1_0_0 : ∀ a, (![0, 0] : Fin 2 → Nat) a + S4000x1.size a ≤ S4000x1.size a
  h_S4000x1 : 0 < S4000x1.numel
  shapeCasts_S4000x1_S4000x1 : S4000x1.ShapeCasts S4000x1
  inb_S4000x128_S4000x128_0_0 : ∀ a, (![0, 0] : Fin 2 → Nat) a + S4000x128.size a ≤ S4000x128.size a
  h_S4000x128 : 0 < S4000x128.numel
  shapeCasts_S4000x128_S4000x128 : S4000x128.ShapeCasts S4000x128
  broadcasts_S4000x1_S4000x128 : S4000x1.Broadcasts S4000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S128_S128_0 : ∀ a, (![0] : Fin 1 → Nat) a + S128.size a ≤ S128.size a
  h_S128 : 0 < S128.numel
  shapeCasts_S128_S1x128 : S128.ShapeCasts S1x128
  broadcasts_S1x128_S4000x128 : S1x128.Broadcasts S4000x128
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S4000x128_S128x128_S4000x128_1_0_0_1_n_n_wf : DotDims.WF S4000x128 S128x128 S4000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S100000x128.size a
  hwx0_0 : ∀ i : grid0.Coords, EltTy.bits .f32 = 32 ∨ (Rect.block (s := S100000x128) S4000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x1.size a ≤ S100000x1.size a
  hwx0_1 : ∀ i : grid0.Coords, EltTy.bits .f32 = 32 ∨ (Rect.block (s := S100000x1) S4000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x128.size a ≤ S100000x128.size a
  hwx0_2 : ∀ i : grid0.Coords, EltTy.bits .f32 = 32 ∨ (Rect.block (s := S100000x128) S4000x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .bf16 = 32 ∨ (Rect.block (s := S128x128) S128x128.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .bf16 = 32 ∨ (Rect.block (s := S128x128) S128x128.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128.size a ≤ S128.size a
  hwx0_5 : ∀ i : grid0.Coords, EltTy.bits .f32 = 32 ∨ (Rect.block (s := S128) S128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S4000x128.size a ≤ S100000x128.size a
  hwx0_6 : ∀ i : grid0.Coords, EltTy.bits .f32 = 32 ∨ (Rect.block (s := S100000x128) S4000x128.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x128.size a ≤ S100000x128.size a
  hwx1_0 : ∀ i : grid1.Coords, EltTy.bits .f32 = 32 ∨ (Rect.block (s := S100000x128) S4000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x1.size a ≤ S100000x1.size a
  hwx1_1 : ∀ i : grid1.Coords, EltTy.bits .f32 = 32 ∨ (Rect.block (s := S100000x1) S4000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4000x128.size a ≤ S100000x128.size a
  hwx1_2 : ∀ i : grid1.Coords, EltTy.bits .f32 = 32 ∨ (Rect.block (s := S100000x128) S4000x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .bf16 = 32 ∨ (Rect.block (s := S128x128) S128x128.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .bf16 = 32 ∨ (Rect.block (s := S128x128) S128x128.size (cc1_transform_4 i) (hinb1_4 i)).WholeWords (EltTy.packing .bf16)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128.size a ≤ S128.size a
  hwx1_5 : ∀ i : grid1.Coords, EltTy.bits .f32 = 32 ∨ (Rect.block (s := S128) S128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S4000x128.size a ≤ S100000x128.size a
  hwx1_6 : ∀ i : grid1.Coords, EltTy.bits .f32 = 32 ∨ (Rect.block (s := S100000x128) S4000x128.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4000x128.size a ≤ S100000x128.size a
  hwx2_0 : ∀ i : grid2.Coords, EltTy.bits .f32 = 32 ∨ (Rect.block (s := S100000x128) S4000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S4000x1.size a ≤ S100000x1.size a
  hwx2_1 : ∀ i : grid2.Coords, EltTy.bits .f32 = 32 ∨ (Rect.block (s := S100000x1) S4000x1.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S4000x128.size a ≤ S100000x128.size a
  hwx2_2 : ∀ i : grid2.Coords, EltTy.bits .f32 = 32 ∨ (Rect.block (s := S100000x128) S4000x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .bf16 = 32 ∨ (Rect.block (s := S128x128) S128x128.size (cc2_transform_3 i) (hinb2_3 i)).WholeWords (EltTy.packing .bf16)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x128.size a ≤ S128x128.size a
  hwx2_4 : ∀ i : grid2.Coords, EltTy.bits .bf16 = 32 ∨ (Rect.block (s := S128x128) S128x128.size (cc2_transform_4 i) (hinb2_4 i)).WholeWords (EltTy.packing .bf16)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S128.size a ≤ S128.size a
  hwx2_5 : ∀ i : grid2.Coords, EltTy.bits .f32 = 32 ∨ (Rect.block (s := S128) S128.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S4000x128.size a ≤ S100000x128.size a
  hwx2_6 : ∀ i : grid2.Coords, EltTy.bits .f32 = 32 ∨ (Rect.block (s := S100000x128) S4000x128.size (cc2_transform_6 i) (hinb2_6 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf

abbrev win0_0 : Pipeline.Window sig grid0 :=
  Pipeline.Window.ofSpec (Memref.whole main_v18) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v8) S4000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S4000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v20) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v22) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg4) S128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v23) S4000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v33) S4000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v8) S4000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v23) S4000x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v35) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v37) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg7) S128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v38) S4000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v48) S4000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v8) S4000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v38) S4000x128.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v50) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v52) S128x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_arg10) S128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v53) S4000x128.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S100000 : Shape := ⟨1, ![100000]⟩
abbrev S100000x1 : Shape := ⟨2, ![100000, 1]⟩
abbrev S1x128 : Shape := ⟨2, ![1, 128]⟩

abbrev nBuf : Space → Nat
  | .hbm => 120
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128x128, .f32⟩
  | .hbm, ⟨10, _⟩ => ⟨S128, .f32⟩
  | .hbm, ⟨11, _⟩ => ⟨S1x1600000, .i32⟩
  | .hbm, ⟨12, _⟩ => ⟨S1600000, .i32⟩
  | .hbm, ⟨13, _⟩ => ⟨S1x1600000, .i32⟩
  | .hbm, ⟨14, _⟩ => ⟨S1600000, .i32⟩
  | .hbm, ⟨15, _⟩ => ⟨S_, .i32⟩
  | .hbm, ⟨16, _⟩ => ⟨S1600000, .i32⟩
  | .hbm, ⟨17, _⟩ => ⟨S1600000, .i1⟩
  | .hbm, ⟨18, _⟩ => ⟨S_, .i32⟩
  | .hbm, ⟨19, _⟩ => ⟨S1600000, .i32⟩
  | .hbm, ⟨20, _⟩ => ⟨S1600000, .i32⟩
  | .hbm, ⟨21, _⟩ => ⟨S1600000, .i32⟩
  | .hbm, ⟨22, _⟩ => ⟨S1600000x1, .i32⟩
  | .hbm, ⟨23, _⟩ => ⟨S1600000x128, .f32⟩
  | .hbm, ⟨24, _⟩ => ⟨S_, .f32⟩
  | .hbm, ⟨25, _⟩ => ⟨S100000x128, .f32⟩
  | .hbm, ⟨26, _⟩ => ⟨S1600000x1, .i32⟩
  | .hbm, ⟨27, _⟩ => ⟨S100000x128, .f32⟩
  | .hbm, ⟨28, _⟩ => ⟨S_, .f32⟩
  | .hbm, ⟨29, _⟩ => ⟨S1600000, .f32⟩
  | .hbm, ⟨30, _⟩ => ⟨S_, .f32⟩
  | .hbm, ⟨31, _⟩ => ⟨S100000, .f32⟩
  | .hbm, ⟨32, _⟩ => ⟨S1600000x1, .i32⟩
  | .hbm, ⟨33, _⟩ => ⟨S100000, .f32⟩
  | .hbm, ⟨34, _⟩ => ⟨S_, .f32⟩
  | .hbm, ⟨35, _⟩ => ⟨S100000, .f32⟩
  | .hbm, ⟨36, _⟩ => ⟨S100000, .f32⟩
  | .hbm, ⟨37, _⟩ => ⟨S100000x1, .f32⟩
  | .hbm, ⟨38, _⟩ => ⟨S100000x128, .f32⟩
  | .hbm, ⟨39, _⟩ => ⟨S100000x128, .f32⟩
  | .hbm, ⟨40, _⟩ => ⟨S128x128, .f32⟩
  | .hbm, ⟨41, _⟩ => ⟨S100000x128, .f32⟩
  | .hbm, ⟨42, _⟩ => ⟨S128x128, .f32⟩
  | .hbm, ⟨43, _⟩ => ⟨S100000x128, .f32⟩
  | .hbm, ⟨44, _⟩ => ⟨S100000x128, .f32⟩
  | .hbm, ⟨45, _⟩ => ⟨S1x128, .f32⟩
  | .hbm, ⟨46, _⟩ => ⟨S100000x128, .f32⟩
  | .hbm, ⟨47, _⟩ => ⟨S100000x128, .f32⟩
  | .hbm, ⟨48, _⟩ => ⟨S_, .f32⟩
  | .hbm, ⟨49, _⟩ => ⟨S100000x128, .f32⟩
  | .hbm, ⟨50, _⟩ => ⟨S100000x128, .f32⟩
  | .hbm, ⟨51, _⟩ => ⟨S_, .i32⟩
  | .hbm, ⟨52, _⟩ => ⟨S1600000, .i32⟩
  | .hbm, ⟨53, _⟩ => ⟨S1600000, .i1⟩
  | .hbm, ⟨54, _⟩ => ⟨S_, .i32⟩
  | .hbm, ⟨55, _⟩ => ⟨S1600000, .i32⟩
  | .hbm, ⟨56, _⟩ => ⟨S1600000, .i32⟩
  | .hbm, ⟨57, _⟩ => ⟨S1600000, .i32⟩
  | .hbm, ⟨58, _⟩ => ⟨S1600000x1, .i32⟩
  | .hbm, ⟨59, _⟩ => ⟨S1600000x128, .f32⟩
  | .hbm, ⟨60, _⟩ => ⟨S_, .f32⟩
  | .hbm, ⟨61, _⟩ => ⟨S100000x128, .f32⟩
  | .hbm, ⟨62, _⟩ => ⟨S1600000x1, .i32⟩
  | .hbm, ⟨63, _⟩ => ⟨S100000x128, .f32⟩
  | .hbm, ⟨64, _⟩ => ⟨S_, .f32⟩
  | .hbm, ⟨65, _⟩ => ⟨S1600000, .f32⟩
  | .hbm, ⟨66, _⟩ => ⟨S_, .f32⟩
  | .hbm, ⟨67, _⟩ => ⟨S100000, .f32⟩
  | .hbm, ⟨68, _⟩ => ⟨S1600000x1, .i32⟩
  | .hbm, ⟨69, _⟩ => ⟨S100000, .f32⟩
  | .hbm, ⟨70, _⟩ => ⟨S_, .f32⟩
  | .hbm, ⟨71, _⟩ => ⟨S100000, .f32⟩
  | .hbm, ⟨72, _⟩ => ⟨S100000, .f32⟩
  | .hbm, ⟨73, _⟩ => ⟨S100000x1, .f32⟩
  | .hbm, ⟨74, _⟩ => ⟨S100000x128, .f32⟩
  | .hbm, ⟨75, _⟩ => ⟨S100000x128, .f32⟩
  | .hbm, ⟨76, _⟩ => ⟨S128x128, .f32⟩
  | .hbm, ⟨77, _⟩ => ⟨S100000x128, .f32⟩
  | .hbm, ⟨78, _⟩ => ⟨S128x128, .f32⟩
  | .hbm, ⟨79, _⟩ => ⟨S100000x128, .f32⟩
  | .hbm, ⟨80, _⟩ => ⟨S100000x128, .f32⟩
  | .hbm, ⟨81, _⟩ => ⟨S1x128, .f32⟩
  | .hbm, ⟨82, _⟩ => ⟨S100000x128, .f32⟩
  | .hbm, ⟨83, _⟩ => ⟨S100000x128, .f32⟩
  | .hbm, ⟨84, _⟩ => ⟨S_, .f32⟩
  | .hbm, ⟨85, _⟩ => ⟨S100000x128, .f32⟩
  | .hbm, ⟨86, _⟩ => ⟨S100000x128, .f32⟩
  | .hbm, ⟨87, _⟩ => ⟨S_, .i32⟩
  | .hbm, ⟨88, _⟩ => ⟨S1600000, .i32⟩
  | .hbm, ⟨89, _⟩ => ⟨S1600000, .i1⟩
  | .hbm, ⟨90, _⟩ => ⟨S_, .i32⟩
  | .hbm, ⟨91, _⟩ => ⟨S1600000, .i32⟩
  | .hbm, ⟨92, _⟩ => ⟨S1600000, .i32⟩
  | .hbm, ⟨93, _⟩ => ⟨S1600000, .i32⟩
  | .hbm, ⟨94, _⟩ => ⟨S1600000x1, .i32⟩
  | .hbm, ⟨95, _⟩ => ⟨S1600000x128, .f32⟩
  | .hbm, ⟨96, _⟩ => ⟨S_, .f32⟩
  | .hbm, ⟨97, _⟩ => ⟨S100000x128, .f32⟩
  | .hbm, ⟨98, _⟩ => ⟨S1600000x1, .i32⟩
  | .hbm, ⟨99, _⟩ => ⟨S100000x128, .f32⟩
  | .hbm, ⟨100, _⟩ => ⟨S_, .f32⟩
  | .hbm, ⟨101, _⟩ => ⟨S1600000, .f32⟩
  | .hbm, ⟨102, _⟩ => ⟨S_, .f32⟩
  | .hbm, ⟨103, _⟩ => ⟨S100000, .f32⟩
  | .hbm, ⟨104, _⟩ => ⟨S1600000x1, .i32⟩
  | .hbm, ⟨105, _⟩ => ⟨S100000, .f32⟩
  | .hbm, ⟨106, _⟩ => ⟨S_, .f32⟩
  | .hbm, ⟨107, _⟩ => ⟨S100000, .f32⟩
  | .hbm, ⟨108, _⟩ => ⟨S100000, .f32⟩
  | .hbm, ⟨109, _⟩ => ⟨S100000x1, .f32⟩
  | .hbm, ⟨110, _⟩ => ⟨S100000x128, .f32⟩
  | .hbm, ⟨111, _⟩ => ⟨S100000x128, .f32⟩
  | .hbm, ⟨112, _⟩ => ⟨S128x128, .f32⟩
  | .hbm, ⟨113, _⟩ => ⟨S100000x128, .f32⟩
  | .hbm, ⟨114, _⟩ => ⟨S128x128, .f32⟩
  | .hbm, ⟨115, _⟩ => ⟨S100000x128, .f32⟩
  | .hbm, ⟨116, _⟩ => ⟨S100000x128, .f32⟩
  | .hbm, ⟨117, _⟩ => ⟨S1x128, .f32⟩
  | .hbm, ⟨118, _⟩ => ⟨S100000x128, .f32⟩
  | .hbm, ⟨119, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_v4 : Ref sig .tc := ⟨.hbm, 16, rfl⟩
abbrev main_v5 : Ref sig .tc := ⟨.hbm, 17, rfl⟩
abbrev main_c_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_1 : Ref sig .tc := ⟨.hbm, 28, rfl⟩
abbrev main_v14 : Ref sig .tc := ⟨.hbm, 29, rfl⟩
abbrev main_cst_2 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_cst_3 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_call0_cst : Ref sig .tc := ⟨.hbm, 48, rfl⟩
abbrev main_call0_v0 : Ref sig .tc := ⟨.hbm, 49, rfl⟩
abbrev main_v31 : Ref sig .tc := ⟨.hbm, 50, rfl⟩
abbrev main_c_4 : Ref sig .tc := ⟨.hbm, 51, rfl⟩
abbrev main_v32 : Ref sig .tc := ⟨.hbm, 52, rfl⟩
abbrev main_v33 : Ref sig .tc := ⟨.hbm, 53, rfl⟩
abbrev main_c_5 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_cst_6 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_cst_7 : Ref sig .tc := ⟨.hbm, 64, rfl⟩
abbrev main_v42 : Ref sig .tc := ⟨.hbm, 65, rfl⟩
abbrev main_cst_8 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_cst_9 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_call1_cst : Ref sig .tc := ⟨.hbm, 84, rfl⟩
abbrev main_call1_v0 : Ref sig .tc := ⟨.hbm, 85, rfl⟩
abbrev main_v59 : Ref sig .tc := ⟨.hbm, 86, rfl⟩
abbrev main_c_10 : Ref sig .tc := ⟨.hbm, 87, rfl⟩
abbrev main_v60 : Ref sig .tc := ⟨.hbm, 88, rfl⟩
abbrev main_v61 : Ref sig .tc := ⟨.hbm, 89, rfl⟩
abbrev main_c_11 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_cst_12 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_cst_13 : Ref sig .tc := ⟨.hbm, 100, rfl⟩
abbrev main_v70 : Ref sig .tc := ⟨.hbm, 101, rfl⟩
abbrev main_cst_14 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_cst_15 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  transposes_S128x128_S128x128_1_0 : S128x128.Transposes [1, 0] S128x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1
  dot_S100000x128_S128x128_S100000x128_1_0_0_1_n_n_wf : DotDims.WF S100000x128 S128x128 S100000x128 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.Layer.lean ====
/-
  One layer of the graph network, index by index, on the extended reals.

  A layer takes the neighbour sums `s` (row `r` holds the sum of the feature rows of the nodes with an edge into `r`),
  the neighbour counts `cnt`, the node features `h`, two weight matrices already laid out contraction-axis first
  (`wl k c`, `wr k c`) and a bias `b`, and returns, at row `r` and column `c`,

      ( Σ_k (s r k / max (cnt r) 1) · wl k c  +  Σ_k h r k · wr k c )  +  b c,

  rectified (the maximum with zero) in the first two layers and left as it is in the last. The grouping of the two
  additions is the one both programs use, so no law of the extended reals beyond reading each operation at an index
  is needed to meet it: the mean of the neighbours is a quotient by the clamped count, the two products are plain sums
  over the 128 features, and the literals one and zero are kept as the words both programs print.
-/
import Idealize.ShloMosaic.PureOps.Ideal
import Idealize.ShloMosaic.Lib.ValueIdx

noncomputable section

namespace Cert.Sage

open Idealize.ShloMosaic Idealize.ShloMosaic.ValueIdx

/-- The clamp's one, as the word both programs print. -/
abbrev one : EReal := Ideal.ofBits .f32 0x3F800000#32
/-- The rectifier's zero, as the word both programs print. -/
abbrev zero : EReal := Ideal.ofBits .f32 0x00000000#32

/-- The rectifier of the first two layers; the last layer has none. -/
def rect (relu : Bool) (a : EReal) : EReal := if relu then max a zero else a

theorem rect_true (a : EReal) : rect true a = max a zero := rfl
theorem rect_false (a : EReal) : rect false a = a := rfl

/-- A layer's value before the rectifier at row `r`, column `c`: the mean of the neighbours through `wl`, the node's own
    features through `wr`, and the bias. -/
def pre (s : (⟨2, ![100000, 128]⟩ : Shape).Idx → EReal) (cnt : Fin 100000 → EReal)
    (h : (⟨2, ![100000, 128]⟩ : Shape).Idx → EReal) (wl wr : (⟨2, ![128, 128]⟩ : Shape).Idx → EReal)
    (b : (⟨1, ![128]⟩ : Shape).Idx → EReal) (r : Fin 100000) (c : Fin 128) : EReal :=
  ((∑ k : Fin 128, Ideal.div (s (ix2 r k)) (max (cnt r) one) * wl (ix2 k c))
    + ∑ k : Fin 128, h (ix2 r k) * wr (ix2 k c)) + b (ix1 c)

/-- One layer as a whole-array function of its six arrays. -/
def layer (relu : Bool) (s : (⟨2, ![100000, 128]⟩ : Shape).Idx → EReal) (cnt : Fin 100000 → EReal)
    (h : (⟨2, ![100000, 128]⟩ : Shape).Idx → EReal) (wl wr : (⟨2, ![128, 128]⟩ : Shape).Idx → EReal)
    (b : (⟨1, ![128]⟩ : Shape).Idx → EReal) : (⟨2, ![100000, 128]⟩ : Shape).Idx → EReal :=
  fun i => rect relu (pre s cnt h wl wr b (i 0) (i 1))

theorem layer_apply (relu : Bool) (s : (⟨2, ![100000, 128]⟩ : Shape).Idx → EReal) (cnt : Fin 100000 → EReal)
    (h : (⟨2, ![100000, 128]⟩ : Shape).Idx → EReal) (wl wr : (⟨2, ![128, 128]⟩ : Shape).Idx → EReal)
    (b : (⟨1, ![128]⟩ : Shape).Idx → EReal) (r : Fin 100000) (c : Fin 128) :
    layer relu s cnt h wl wr b (ix2 r c) = rect relu (pre s cnt h wl wr b r c) := rfl

end Cert.Sage

end
-- ==== Proof.Body.lean ====
/-
  What the kernel body stores, read at one entry of its block.

  At a grid point the body holds a block of 4000 rows of the neighbour sums `s`, the same rows of the counts and of the
  node features `h`, both weight matrices whole and the bias. Entry (p, q) of what it stores is the layer's value at
  that row and column: the row of `s` divided by the clamped count and multiplied into column `q` of the first matrix,
  plus the row of `h` into column `q` of the second, plus the bias, each product a sum over the 128 features (a matrix
  product into a zero accumulator is that sum on the extended reals, and narrowing the operands' format changes nothing).
-/
import proofs.«103460_j16999480557861_1_alg».proof.Proof.Gen.KernelIdeal.Skeleton
import proofs.«103460_j16999480557861_1_alg».proof.Proof.Layer
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Body

open Cert.KernelIdeal Cert.KernelIdeal.Gen Idealize.ShloMosaic Idealize.ShloMosaic.ValueIdx

/-- The left operand of a block's product is read at (row of the result, contracted feature). -/
theorem lhs_at (p : Fin 4000) (q : Fin 128) (k : Fin 128) :
    dot_S4000x128_S128x128_S4000x128_1_0_0_1_n_n.lhsIdx (ix2 p q) ((contrEquiv1 dot_S4000x128_S128x128_S4000x128_1_0_0_1_n_n 128 rfl rfl).symm k) = ix2 p k := by
  have hk := contrEquiv1_symm_val dot_S4000x128_S128x128_S4000x128_1_0_0_1_n_n 128 rfl rfl k
  funext a
  apply Fin.ext
  match a with
  | ⟨0, _⟩ =>
    show (dot_S4000x128_S128x128_S4000x128_1_0_0_1_n_n.lhsIdx (ix2 p q) _ 0).val = p.val
    unfold DotDims.lhsIdx
    rw [dif_neg (show ¬(0 : Fin S4000x128.rank) ∈ dot_S4000x128_S128x128_S4000x128_1_0_0_1_n_n.lhsBatch by decide), dif_pos (show (0 : Fin S4000x128.rank) ∈ dot_S4000x128_S128x128_S4000x128_1_0_0_1_n_n.lhsNonContracting by decide)]
    rfl
  | ⟨1, _⟩ => exact (dot_S4000x128_S128x128_S4000x128_1_0_0_1_n_n.lhsIdx_val_of_single rfl (ix2 p q) _).trans hk

/-- The right operand is read at (contracted feature, column of the result). -/
theorem rhs_at (p : Fin 4000) (q : Fin 128) (k : Fin 128) :
    dot_S4000x128_S128x128_S4000x128_1_0_0_1_n_n.rhsIdx (ix2 p q) ((contrEquiv1 dot_S4000x128_S128x128_S4000x128_1_0_0_1_n_n 128 rfl rfl).symm k) = ix2 k q := by
  have hk := contrEquiv1_symm_val dot_S4000x128_S128x128_S4000x128_1_0_0_1_n_n 128 rfl rfl k
  funext a
  apply Fin.ext
  match a with
  | ⟨0, _⟩ => exact (dot_S4000x128_S128x128_S4000x128_1_0_0_1_n_n.rhsIdx_val_of_single rfl (ix2 p q) _).trans hk
  | ⟨1, _⟩ =>
    show (dot_S4000x128_S128x128_S4000x128_1_0_0_1_n_n.rhsIdx (ix2 p q) _ 1).val = q.val
    unfold DotDims.rhsIdx
    rw [dif_neg (show ¬(1 : Fin S128x128.rank) ∈ dot_S4000x128_S128x128_S4000x128_1_0_0_1_n_n.rhsBatch by decide), dif_pos (show (1 : Fin S128x128.rank) ∈ dot_S4000x128_S128x128_S4000x128_1_0_0_1_n_n.rhsNonContracting by decide)]
    rfl

/-- A block's product with a weight matrix into the zero accumulator, at row `p` and column `q`: the sum over the
    128 features of the block's row against the matrix's column. -/
theorem product_at (l : FVec Ideal S4000x128 .bf16) (r : FVec Ideal S128x128 .bf16) (p : Fin 4000) (q : Fin 128) :
    matmul dot_S4000x128_S128x128_S4000x128_1_0_0_1_n_n none l r (constant S4000x128 .f32 0x00000000#32) (ix2 p q)
      = ∑ k : Fin 128, l (ix2 p k) * r (ix2 k q) := by
  show FloatOps.matmul dot_S4000x128_S128x128_S4000x128_1_0_0_1_n_n none l r (constant S4000x128 .f32 0x00000000#32) (ix2 p q) = _
  rw [Ideal.matmul_constant_zero_apply, ← Equiv.sum_comp (contrEquiv1 dot_S4000x128_S128x128_S4000x128_1_0_0_1_n_n 128 rfl rfl).symm]
  refine Finset.sum_congr rfl fun k _ => ?_
  rw [lhs_at, rhs_at]

/-- A column of per-row values spread over the 128 columns reads, at row `p`, that row's value. -/
theorem col_spread (x : FVec Ideal S4000x1 .f32) (h : S4000x1.Broadcasts S4000x128) (p : Fin 4000) (k : Fin 128) :
    broadcastTo S4000x128 x h (ix2 p k) = x (ix2 p 0) :=
  broadcastTo_apply x h (ix2 p k) (ix2 p 0) fun a => match a with
    | ⟨0, _⟩ => by show p.val = if (4000 : ℕ) = 1 then 0 else p.val; simp
    | ⟨1, _⟩ => by show (0 : ℕ) = if (1 : ℕ) = 1 then 0 else _; simp

/-- The bias, given a leading axis of extent one and spread over the 4000 rows, reads at column `q` its `q`-th entry. -/
theorem bias_spread (b : FVec Ideal S128 .f32) (h1 : S128.ShapeCasts S1x128) (h2 : S1x128.Broadcasts S4000x128) (p : Fin 4000) (q : Fin 128) :
    broadcastTo S4000x128 (shapeCast S1x128 b h1) h2 (ix2 p q) = b (ix1 q) := by
  refine (broadcastTo_apply (shapeCast S1x128 b h1) h2 (ix2 p q) (ix2 0 q) fun a => match a with
    | ⟨0, _⟩ => by show (0 : ℕ) = if (1 : ℕ) = 1 then 0 else _; simp
    | ⟨1, _⟩ => by show q.val = if (128 : ℕ) = 1 then 0 else q.val; simp).trans ?_
  exact (shapeCast_addUnit_apply ![128] b h1 (ix2 0 q)).trans (congrArg b (funext fun a => match a with | ⟨0, _⟩ => rfl))

/-- What region 0's body stores at row `p`, column `q` of its block, rectified. -/
theorem stored0_at (cnt : FVec Ideal S4000x1 .f32) (s h : FVec Ideal S4000x128 .f32) (wl wr : FVec Ideal S128x128 .bf16)
    (b : FVec Ideal S128 .f32) (p : Fin 4000) (q : Fin 128) :
    k0_pay1 (F := Ideal) cnt s h wl wr b (ix2 p q)
      = Sage.rect true (((∑ k : Fin 128, Ideal.div (s (ix2 p k)) (max (cnt (ix2 p 0)) Sage.one) * wl (ix2 k q))
          + ∑ k : Fin 128, h (ix2 p k) * wr (ix2 k q)) + b (ix1 q)) := by
  unfold k0_pay1
  simp only [shapeCast_self]
  rw [Sage.rect_true, maximumf_apply, addf_apply, addf_apply, product_at, product_at, bias_spread, broadcast_apply]
  simp only [truncf_apply, divf_apply, col_spread, maximumf_apply, broadcast_apply]
  rfl

/-- What region 1's body stores at row `p`, column `q` of its block, rectified. -/
theorem stored1_at (cnt : FVec Ideal S4000x1 .f32) (s h : FVec Ideal S4000x128 .f32) (wl wr : FVec Ideal S128x128 .bf16)
    (b : FVec Ideal S128 .f32) (p : Fin 4000) (q : Fin 128) :
    k1_pay1 (F := Ideal) cnt s h wl wr b (ix2 p q)
      = Sage.rect true (((∑ k : Fin 128, Ideal.div (s (ix2 p k)) (max (cnt (ix2 p 0)) Sage.one) * wl (ix2 k q))
          + ∑ k : Fin 128, h (ix2 p k) * wr (ix2 k q)) + b (ix1 q)) := by
  unfold k1_pay1
  simp only [shapeCast_self]
  rw [Sage.rect_true, maximumf_apply, addf_apply, addf_apply, product_at, product_at, bias_spread, broadcast_apply]
  simp only [truncf_apply, divf_apply, col_spread, maximumf_apply, broadcast_apply]
  rfl

/-- What region 2's body stores at row `p`, column `q` of its block. -/
theorem stored2_at (cnt : FVec Ideal S4000x1 .f32) (s h : FVec Ideal S4000x128 .f32) (wl wr : FVec Ideal S128x128 .bf16)
    (b : FVec Ideal S128 .f32) (p : Fin 4000) (q : Fin 128) :
    k2_pay1 (F := Ideal) cnt s h wl wr b (ix2 p q)
      = Sage.rect false (((∑ k : Fin 128, Ideal.div (s (ix2 p k)) (max (cnt (ix2 p 0)) Sage.one) * wl (ix2 k q))
          + ∑ k : Fin 128, h (ix2 p k) * wr (ix2 k q)) + b (ix1 q)) := by
  unfold k2_pay1
  simp only [shapeCast_self]
  rw [Sage.rect_false, addf_apply, addf_apply, product_at, product_at, bias_spread]
  simp only [truncf_apply, divf_apply, col_spread, maximumf_apply, broadcast_apply]
  rfl

end Cert.KernelIdeal.Body

end
-- ==== Proof.Region0.lean ====
/-
  Region 0 of the program: what its output array holds when the region ends.

  The region walks 25 grid points; point `t` reads rows 4000 t … 4000 t + 3999 of the neighbour sums, of the counts and
  of the node features, both weight matrices and the bias whole, and writes the same rows of the output. What the
  body stores at an entry of its block is the layer's value at that row and column (the body module), each block
  entry is the array entry at row 4000 t + p, and the 25 blocks tile the 100000 rows; so the output array ends as
  the layer, as one function of the six arrays the region finds at its entry, whatever those contents are.
-/
import proofs.«103460_j16999480557861_1_alg».proof.Proof.FrameKernelIdealP
import proofs.«103460_j16999480557861_1_alg».proof.Proof.Body
import proofs.«103460_j16999480557861_1_alg».proof.Proof.Layer
import Idealize.ShloMosaic.Lib.Pipeline.Value
import Idealize.ShloMosaic.Lib.ValueIdx

noncomputable section

namespace Cert.KernelIdeal.Region0

open Cert.KernelIdeal Cert.KernelIdeal.Gen Cert.KernelIdeal.GenP Idealize.ShloMosaic Idealize.ShloMosaic.TcCoe
open Idealize.ShloMosaic.ValueIdx Idealize.SL.Sem
open Idealize.ShloMosaic.Pipeline (Dat)

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-- The index maps over the grid: the three row-blocked inputs and the output sit at block row `t`, the two weight
    matrices and the bias at their one block. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 1) = 0
    ∧ win0_6.index t (0 : Fin 2) = t.val ∧ win0_6.index t (1 : Fin 2) = 0 :=
  (by decide +kernel : ∀ t : Fin grid0.N, _)

theorem point_lt (t : Fin cfg0.N) : t.val < 25 := by
  have h : t.val < grid0.N := t.isLt
  rw [N_0] at h
  exact h

/-- Row `p` of point `t`'s block is row `4000 t + p` of the array. -/
def row (t : Fin cfg0.N) (p : Fin 4000) : Fin 100000 :=
  ⟨t.val * 4000 + p.val, by have := point_lt t; have := p.isLt; omega⟩

theorem row_val (t : Fin cfg0.N) (p : Fin 4000) : (row t p).val = t.val * 4000 + p.val := rfl

/-! ## Each window's block at a point, read where it sits in its array -/

theorem read_s (c : Dev nD) (t : Fin cfg0.N) (p : Fin 4000) (k : Fin 128) :
    iblk0 V c 0 t (ix2 p k) = V c main_v18 (ix2 (row t p) k) := by
  show V c main_v18 (((cfg0.win 0).blk t).view.emb (ix2 p k)) = _
  obtain ⟨e00, e01, -⟩ := idx_facts t
  refine congrArg (V c main_v18) (funext fun a => Fin.ext ?_)
  match a with
  | ⟨0, _⟩ => show win0_0.index t (0 : Fin 2) * 4000 + 1 * p.val = t.val * 4000 + p.val; omega
  | ⟨1, _⟩ => show win0_0.index t (1 : Fin 2) * 128 + 1 * k.val = k.val; omega

theorem read_cnt (c : Dev nD) (t : Fin cfg0.N) (p : Fin 4000) :
    iblk0 V c 1 t (ix2 p 0) = V c main_v8 (ix2 (row t p) 0) := by
  show V c main_v8 (((cfg0.win 1).blk t).view.emb (ix2 p 0)) = _
  obtain ⟨-, -, e10, e11, -⟩ := idx_facts t
  refine congrArg (V c main_v8) (funext fun a => Fin.ext ?_)
  match a with
  | ⟨0, _⟩ => show win0_1.index t (0 : Fin 2) * 4000 + 1 * p.val = t.val * 4000 + p.val; omega
  | ⟨1, _⟩ => show win0_1.index t (1 : Fin 2) * 1 + 1 * 0 = 0; omega

theorem read_h (c : Dev nD) (t : Fin cfg0.N) (p : Fin 4000) (k : Fin 128) :
    iblk0 V c 2 t (ix2 p k) = V c main_arg0 (ix2 (row t p) k) := by
  show V c main_arg0 (((cfg0.win 2).blk t).view.emb (ix2 p k)) = _
  obtain ⟨-, -, -, -, e20, e21, -⟩ := idx_facts t
  refine congrArg (V c main_arg0) (funext fun a => Fin.ext ?_)
  match a with
  | ⟨0, _⟩ => show win0_2.index t (0 : Fin 2) * 4000 + 1 * p.val = t.val * 4000 + p.val; omega
  | ⟨1, _⟩ => show win0_2.index t (1 : Fin 2) * 128 + 1 * k.val = k.val; omega

theorem read_wl (c : Dev nD) (t : Fin cfg0.N) (k q : Fin 128) :
    iblk0 V c 3 t (ix2 k q) = V c main_v20 (ix2 k q) := by
  show V c main_v20 (((cfg0.win 3).blk t).view.emb (ix2 k q)) = _
  obtain ⟨-, -, -, -, -, -, e30, e31, -⟩ := idx_facts t
  refine congrArg (V c main_v20) (funext fun a => Fin.ext ?_)
  match a with
  | ⟨0, _⟩ => show win0_3.index t (0 : Fin 2) * 128 + 1 * k.val = k.val; omega
  | ⟨1, _⟩ => show win0_3.index t (1 : Fin 2) * 128 + 1 * q.val = q.val; omega

theorem read_wr (c : Dev nD) (t : Fin cfg0.N) (k q : Fin 128) :
    iblk0 V c 4 t (ix2 k q) = V c main_v22 (ix2 k q) := by
  show V c main_v22 (((cfg0.win 4).blk t).view.emb (ix2 k q)) = _
  obtain ⟨-, -, -, -, -, -, -, -, e40, e41, -⟩ := idx_facts t
  refine congrArg (V c main_v22) (funext fun a => Fin.ext ?_)
  match a with
  | ⟨0, _⟩ => show win0_4.index t (0 : Fin 2) * 128 + 1 * k.val = k.val; omega
  | ⟨1, _⟩ => show win0_4.index t (1 : Fin 2) * 128 + 1 * q.val = q.val; omega

theorem read_b (c : Dev nD) (t : Fin cfg0.N) (q : Fin 128) :
    iblk0 V c 5 t (ix1 q) = V c main_arg4 (ix1 q) := by
  show V c main_arg4 (((cfg0.win 5).blk t).view.emb (ix1 q)) = _
  obtain ⟨-, -, -, -, -, -, -, -, -, -, e50, -⟩ := idx_facts t
  refine congrArg (V c main_arg4) (funext fun a => Fin.ext ?_)
  match a with
  | ⟨0, _⟩ => show win0_5.index t (0 : Fin 1) * 128 + 1 * q.val = q.val; omega

theorem emb_out (t : Fin cfg0.N) (p : Fin 4000) (q : Fin 128) :
    ((cfg0.win 6).blk t).view.emb (ix2 p q) = ix2 (row t p) q := by
  obtain ⟨-, -, -, -, -, -, -, -, -, -, -, e60, e61⟩ := idx_facts t
  refine funext fun a => Fin.ext ?_
  match a with
  | ⟨0, _⟩ => show win0_6.index t (0 : Fin 2) * 4000 + 1 * p.val = t.val * 4000 + p.val; omega
  | ⟨1, _⟩ => show win0_6.index t (1 : Fin 2) * 128 + 1 * q.val = q.val; omega

/-! ## What a point writes back, the cover, and the array -/

/-- Point `t` writes back block `t` of the layer of the arrays the region found. -/
theorem flushed_eq (c : Dev nD) (t : Fin cfg0.N) :
    (dat0 V c).flushed 6 t = ((cfg0.win 6).blk t).view.read (Elt Ideal) (Sage.layer true (V c main_v18) (fun r => V c main_v8 (ix2 r 0)) (V c main_arg0) (V c main_v20) (V c main_v22) (V c main_arg4)) := by
  show (cfg0.win 6).cut (grid0.coords t) ((dat0 V c).after 6 t) = _
  rw [after0_6]
  unfold out0_6
  rw [View.canon_unit_zero hz2]
  simp only [View.ld_unit_zero (S := S4000x128) hz2, View.ld_unit_zero (S := S4000x1) hz2, View.ld_unit_zero (S := S128x128) hz2,
    View.ld_unit_zero (S := S128) hz1]
  funext j
  obtain ⟨p, q, rfl⟩ : ∃ (p : Fin 4000) (q : Fin 128), j = ix2 p q := ⟨j 0, j 1, eq_ix2 j⟩
  show k0_pay1 (F := Ideal) (iblk0 V c 1 t) (iblk0 V c 0 t) (iblk0 V c 2 t) (iblk0 V c 3 t) (iblk0 V c 4 t) (iblk0 V c 5 t) (ix2 p q)
      = (Sage.layer true (V c main_v18) (fun r => V c main_v8 (ix2 r 0)) (V c main_arg0) (V c main_v20) (V c main_v22) (V c main_arg4)) (((cfg0.win 6).blk t).view.emb (ix2 p q))
  refine (Body.stored0_at (iblk0 V c 1 t) (iblk0 V c 0 t) (iblk0 V c 2 t) (iblk0 V c 3 t) (iblk0 V c 4 t) (iblk0 V c 5 t) p q).trans ?_
  rw [emb_out, Sage.layer_apply]
  unfold Sage.pre
  simp only [read_s, read_cnt, read_h, read_wl, read_wr, read_b]

/-- An index of the output array is in point `t`'s block iff each coordinate is in the block's range on its axis. -/
theorem mem_blk (t : Fin cfg0.N) (i : S100000x128.Idx) :
    i ∈ ((cfg0.win 6).blk t).view.set ↔ ∀ a : Fin 2, win0_6.index t a * S4000x128.size a ≤ (i a).val ∧ (i a).val < win0_6.index t a * S4000x128.size a + S4000x128.size a := by
  show i ∈ ((View.whole main_v23).slice (win0_6.rect t)).set ↔ _
  rw [View.set_slice_whole, Rect.mem_set_unit]
  exact Iff.rfl

/-- Every row of the array is in the block of the point its row number divided by 4000 names. -/
theorem cover (i : S100000x128.Idx) : ∃ t : Fin cfg0.N, (cfg0.win 6).flush t = true ∧ i ∈ ((cfg0.win 6).blk t).view.set := by
  have hi0 : (i 0).val < 100000 := (i 0).isLt
  have hi1 : (i 1).val < 128 := (i 1).isLt
  have hN : grid0.N = 25 := N_0
  have ht : (i 0).val / 4000 < grid0.N := by rw [hN]; omega
  obtain ⟨-, -, -, -, -, -, -, -, -, -, -, e60, e61⟩ := idx_facts (⟨(i 0).val / 4000, ht⟩ : Fin cfg0.N)
  refine ⟨⟨(i 0).val / 4000, ht⟩, flush0_6 _, ?_⟩
  rw [mem_blk]
  intro a
  have e60' : win0_6.index (⟨(i 0).val / 4000, ht⟩ : Fin cfg0.N) (0 : Fin 2) = (i 0).val / 4000 := e60
  match a with
  | ⟨0, _⟩ =>
    show win0_6.index _ (0 : Fin 2) * 4000 ≤ (i 0).val ∧ (i 0).val < win0_6.index _ (0 : Fin 2) * 4000 + 4000
    rw [e60']; omega
  | ⟨1, _⟩ =>
    show win0_6.index _ (1 : Fin 2) * 128 ≤ (i 1).val ∧ (i 1).val < win0_6.index _ (1 : Fin 2) * 128 + 128
    rw [e61]; omega

/-- THE OUTPUT ARRAY when the region ends: the layer of the six arrays the region found at its entry. -/
theorem value (c : Dev nD) : (dat0 V c).arrAt 6 cfg0.N = (Sage.layer true (V c main_v18) (fun r => V c main_v8 (ix2 r 0)) (V c main_arg0) (V c main_v20) (V c main_v22) (V c main_arg4)) :=
  (dat0 V c).arrAt_eq_of_cover 6 _ (fun t _ => flushed_eq V c t) cover

end Cert.KernelIdeal.Region0

end
-- ==== Proof.Region1.lean ====
/-
  Region 1 of the program: what its output array holds when the region ends.

  The region walks 25 grid points; point `t` reads rows 4000 t … 4000 t + 3999 of the neighbour sums, of the counts and
  of the node features, both weight matrices and the bias whole, and writes the same rows of the output. What the
  body stores at an entry of its block is the layer's value at that row and column (the body module), each block
  entry is the array entry at row 4000 t + p, and the 25 blocks tile the 100000 rows; so the output array ends as
  the layer, as one function of the six arrays the region finds at its entry, whatever those contents are.
-/
import proofs.«103460_j16999480557861_1_alg».proof.Proof.FrameKernelIdealP
import proofs.«103460_j16999480557861_1_alg».proof.Proof.Body
import proofs.«103460_j16999480557861_1_alg».proof.Proof.Layer
import Idealize.ShloMosaic.Lib.Pipeline.Value
import Idealize.ShloMosaic.Lib.ValueIdx

noncomputable section

namespace Cert.KernelIdeal.Region1

open Cert.KernelIdeal Cert.KernelIdeal.Gen Cert.KernelIdeal.GenP Idealize.ShloMosaic Idealize.ShloMosaic.TcCoe
open Idealize.ShloMosaic.ValueIdx Idealize.SL.Sem
open Idealize.ShloMosaic.Pipeline (Dat)

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-- The index maps over the grid: the three row-blocked inputs and the output sit at block row `t`, the two weight
    matrices and the bias at their one block. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 1) = 0
    ∧ win1_6.index t (0 : Fin 2) = t.val ∧ win1_6.index t (1 : Fin 2) = 0 :=
  (by decide +kernel : ∀ t : Fin grid1.N, _)

theorem point_lt (t : Fin cfg1.N) : t.val < 25 := by
  have h : t.val < grid1.N := t.isLt
  rw [N_1] at h
  exact h

/-- Row `p` of point `t`'s block is row `4000 t + p` of the array. -/
def row (t : Fin cfg1.N) (p : Fin 4000) : Fin 100000 :=
  ⟨t.val * 4000 + p.val, by have := point_lt t; have := p.isLt; omega⟩

theorem row_val (t : Fin cfg1.N) (p : Fin 4000) : (row t p).val = t.val * 4000 + p.val := rfl

/-! ## Each window's block at a point, read where it sits in its array -/

theorem read_s (c : Dev nD) (t : Fin cfg1.N) (p : Fin 4000) (k : Fin 128) :
    iblk1 V c 0 t (ix2 p k) = V c main_v33 (ix2 (row t p) k) := by
  show V c main_v33 (((cfg1.win 0).blk t).view.emb (ix2 p k)) = _
  obtain ⟨e00, e01, -⟩ := idx_facts t
  refine congrArg (V c main_v33) (funext fun a => Fin.ext ?_)
  match a with
  | ⟨0, _⟩ => show win1_0.index t (0 : Fin 2) * 4000 + 1 * p.val = t.val * 4000 + p.val; omega
  | ⟨1, _⟩ => show win1_0.index t (1 : Fin 2) * 128 + 1 * k.val = k.val; omega

theorem read_cnt (c : Dev nD) (t : Fin cfg1.N) (p : Fin 4000) :
    iblk1 V c 1 t (ix2 p 0) = V c main_v8 (ix2 (row t p) 0) := by
  show V c main_v8 (((cfg1.win 1).blk t).view.emb (ix2 p 0)) = _
  obtain ⟨-, -, e10, e11, -⟩ := idx_facts t
  refine congrArg (V c main_v8) (funext fun a => Fin.ext ?_)
  match a with
  | ⟨0, _⟩ => show win1_1.index t (0 : Fin 2) * 4000 + 1 * p.val = t.val * 4000 + p.val; omega
  | ⟨1, _⟩ => show win1_1.index t (1 : Fin 2) * 1 + 1 * 0 = 0; omega

theorem read_h (c : Dev nD) (t : Fin cfg1.N) (p : Fin 4000) (k : Fin 128) :
    iblk1 V c 2 t (ix2 p k) = V c main_v23 (ix2 (row t p) k) := by
  show V c main_v23 (((cfg1.win 2).blk t).view.emb (ix2 p k)) = _
  obtain ⟨-, -, -, -, e20, e21, -⟩ := idx_facts t
  refine congrArg (V c main_v23) (funext fun a => Fin.ext ?_)
  match a with
  | ⟨0, _⟩ => show win1_2.index t (0 : Fin 2) * 4000 + 1 * p.val = t.val * 4000 + p.val; omega
  | ⟨1, _⟩ => show win1_2.index t (1 : Fin 2) * 128 + 1 * k.val = k.val; omega

theorem read_wl (c : Dev nD) (t : Fin cfg1.N) (k q : Fin 128) :
    iblk1 V c 3 t (ix2 k q) = V c main_v35 (ix2 k q) := by
  show V c main_v35 (((cfg1.win 3).blk t).view.emb (ix2 k q)) = _
  obtain ⟨-, -, -, -, -, -, e30, e31, -⟩ := idx_facts t
  refine congrArg (V c main_v35) (funext fun a => Fin.ext ?_)
  match a with
  | ⟨0, _⟩ => show win1_3.index t (0 : Fin 2) * 128 + 1 * k.val = k.val; omega
  | ⟨1, _⟩ => show win1_3.index t (1 : Fin 2) * 128 + 1 * q.val = q.val; omega

theorem read_wr (c : Dev nD) (t : Fin cfg1.N) (k q : Fin 128) :
    iblk1 V c 4 t (ix2 k q) = V c main_v37 (ix2 k q) := by
  show V c main_v37 (((cfg1.win 4).blk t).view.emb (ix2 k q)) = _
  obtain ⟨-, -, -, -, -, -, -, -, e40, e41, -⟩ := idx_facts t
  refine congrArg (V c main_v37) (funext fun a => Fin.ext ?_)
  match a with
  | ⟨0, _⟩ => show win1_4.index t (0 : Fin 2) * 128 + 1 * k.val = k.val; omega
  | ⟨1, _⟩ => show win1_4.index t (1 : Fin 2) * 128 + 1 * q.val = q.val; omega

theorem read_b (c : Dev nD) (t : Fin cfg1.N) (q : Fin 128) :
    iblk1 V c 5 t (ix1 q) = V c main_arg7 (ix1 q) := by
  show V c main_arg7 (((cfg1.win 5).blk t).view.emb (ix1 q)) = _
  obtain ⟨-, -, -, -, -, -, -, -, -, -, e50, -⟩ := idx_facts t
  refine congrArg (V c main_arg7) (funext fun a => Fin.ext ?_)
  match a with
  | ⟨0, _⟩ => show win1_5.index t (0 : Fin 1) * 128 + 1 * q.val = q.val; omega

theorem emb_out (t : Fin cfg1.N) (p : Fin 4000) (q : Fin 128) :
    ((cfg1.win 6).blk t).view.emb (ix2 p q) = ix2 (row t p) q := by
  obtain ⟨-, -, -, -, -, -, -, -, -, -, -, e60, e61⟩ := idx_facts t
  refine funext fun a => Fin.ext ?_
  match a with
  | ⟨0, _⟩ => show win1_6.index t (0 : Fin 2) * 4000 + 1 * p.val = t.val * 4000 + p.val; omega
  | ⟨1, _⟩ => show win1_6.index t (1 : Fin 2) * 128 + 1 * q.val = q.val; omega

/-! ## What a point writes back, the cover, and the array -/

/-- Point `t` writes back block `t` of the layer of the arrays the region found. -/
theorem flushed_eq (c : Dev nD) (t : Fin cfg1.N) :
    (dat1 V c).flushed 6 t = ((cfg1.win 6).blk t).view.read (Elt Ideal) (Sage.layer true (V c main_v33) (fun r => V c main_v8 (ix2 r 0)) (V c main_v23) (V c main_v35) (V c main_v37) (V c main_arg7)) := by
  show (cfg1.win 6).cut (grid1.coords t) ((dat1 V c).after 6 t) = _
  rw [after1_6]
  unfold out1_6
  rw [View.canon_unit_zero hz2]
  simp only [View.ld_unit_zero (S := S4000x128) hz2, View.ld_unit_zero (S := S4000x1) hz2, View.ld_unit_zero (S := S128x128) hz2,
    View.ld_unit_zero (S := S128) hz1]
  funext j
  obtain ⟨p, q, rfl⟩ : ∃ (p : Fin 4000) (q : Fin 128), j = ix2 p q := ⟨j 0, j 1, eq_ix2 j⟩
  show k1_pay1 (F := Ideal) (iblk1 V c 1 t) (iblk1 V c 0 t) (iblk1 V c 2 t) (iblk1 V c 3 t) (iblk1 V c 4 t) (iblk1 V c 5 t) (ix2 p q)
      = (Sage.layer true (V c main_v33) (fun r => V c main_v8 (ix2 r 0)) (V c main_v23) (V c main_v35) (V c main_v37) (V c main_arg7)) (((cfg1.win 6).blk t).view.emb (ix2 p q))
  refine (Body.stored1_at (iblk1 V c 1 t) (iblk1 V c 0 t) (iblk1 V c 2 t) (iblk1 V c 3 t) (iblk1 V c 4 t) (iblk1 V c 5 t) p q).trans ?_
  rw [emb_out, Sage.layer_apply]
  unfold Sage.pre
  simp only [read_s, read_cnt, read_h, read_wl, read_wr, read_b]

/-- An index of the output array is in point `t`'s block iff each coordinate is in the block's range on its axis. -/
theorem mem_blk (t : Fin cfg1.N) (i : S100000x128.Idx) :
    i ∈ ((cfg1.win 6).blk t).view.set ↔ ∀ a : Fin 2, win1_6.index t a * S4000x128.size a ≤ (i a).val ∧ (i a).val < win1_6.index t a * S4000x128.size a + S4000x128.size a := by
  show i ∈ ((View.whole main_v38).slice (win1_6.rect t)).set ↔ _
  rw [View.set_slice_whole, Rect.mem_set_unit]
  exact Iff.rfl

/-- Every row of the array is in the block of the point its row number divided by 4000 names. -/
theorem cover (i : S100000x128.Idx) : ∃ t : Fin cfg1.N, (cfg1.win 6).flush t = true ∧ i ∈ ((cfg1.win 6).blk t).view.set := by
  have hi0 : (i 0).val < 100000 := (i 0).isLt
  have hi1 : (i 1).val < 128 := (i 1).isLt
  have hN : grid1.N = 25 := N_1
  have ht : (i 0).val / 4000 < grid1.N := by rw [hN]; omega
  obtain ⟨-, -, -, -, -, -, -, -, -, -, -, e60, e61⟩ := idx_facts (⟨(i 0).val / 4000, ht⟩ : Fin cfg1.N)
  refine ⟨⟨(i 0).val / 4000, ht⟩, flush1_6 _, ?_⟩
  rw [mem_blk]
  intro a
  have e60' : win1_6.index (⟨(i 0).val / 4000, ht⟩ : Fin cfg1.N) (0 : Fin 2) = (i 0).val / 4000 := e60
  match a with
  | ⟨0, _⟩ =>
    show win1_6.index _ (0 : Fin 2) * 4000 ≤ (i 0).val ∧ (i 0).val < win1_6.index _ (0 : Fin 2) * 4000 + 4000
    rw [e60']; omega
  | ⟨1, _⟩ =>
    show win1_6.index _ (1 : Fin 2) * 128 ≤ (i 1).val ∧ (i 1).val < win1_6.index _ (1 : Fin 2) * 128 + 128
    rw [e61]; omega

/-- THE OUTPUT ARRAY when the region ends: the layer of the six arrays the region found at its entry. -/
theorem value (c : Dev nD) : (dat1 V c).arrAt 6 cfg1.N = (Sage.layer true (V c main_v33) (fun r => V c main_v8 (ix2 r 0)) (V c main_v23) (V c main_v35) (V c main_v37) (V c main_arg7)) :=
  (dat1 V c).arrAt_eq_of_cover 6 _ (fun t _ => flushed_eq V c t) cover

end Cert.KernelIdeal.Region1

end
-- ==== Proof.Region2.lean ====
/-
  Region 2 of the program: what its output array holds when the region ends.

  The region walks 25 grid points; point `t` reads rows 4000 t … 4000 t + 3999 of the neighbour sums, of the counts and
  of the node features, both weight matrices and the bias whole, and writes the same rows of the output. What the
  body stores at an entry of its block is the layer's value at that row and column (the body module), each block
  entry is the array entry at row 4000 t + p, and the 25 blocks tile the 100000 rows; so the output array ends as
  the layer, as one function of the six arrays the region finds at its entry, whatever those contents are.
-/
import proofs.«103460_j16999480557861_1_alg».proof.Proof.FrameKernelIdealP
import proofs.«103460_j16999480557861_1_alg».proof.Proof.Body
import proofs.«103460_j16999480557861_1_alg».proof.Proof.Layer
import Idealize.ShloMosaic.Lib.Pipeline.Value
import Idealize.ShloMosaic.Lib.ValueIdx

noncomputable section

namespace Cert.KernelIdeal.Region2

open Cert.KernelIdeal Cert.KernelIdeal.Gen Cert.KernelIdeal.GenP Idealize.ShloMosaic Idealize.ShloMosaic.TcCoe
open Idealize.ShloMosaic.ValueIdx Idealize.SL.Sem
open Idealize.ShloMosaic.Pipeline (Dat)

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-- The index maps over the grid: the three row-blocked inputs and the output sit at block row `t`, the two weight
    matrices and the bias at their one block. -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 1) = 0
    ∧ win2_6.index t (0 : Fin 2) = t.val ∧ win2_6.index t (1 : Fin 2) = 0 :=
  (by decide +kernel : ∀ t : Fin grid2.N, _)

theorem point_lt (t : Fin cfg2.N) : t.val < 25 := by
  have h : t.val < grid2.N := t.isLt
  rw [N_2] at h
  exact h

/-- Row `p` of point `t`'s block is row `4000 t + p` of the array. -/
def row (t : Fin cfg2.N) (p : Fin 4000) : Fin 100000 :=
  ⟨t.val * 4000 + p.val, by have := point_lt t; have := p.isLt; omega⟩

theorem row_val (t : Fin cfg2.N) (p : Fin 4000) : (row t p).val = t.val * 4000 + p.val := rfl

/-! ## Each window's block at a point, read where it sits in its array -/

theorem read_s (c : Dev nD) (t : Fin cfg2.N) (p : Fin 4000) (k : Fin 128) :
    iblk2 V c 0 t (ix2 p k) = V c main_v48 (ix2 (row t p) k) := by
  show V c main_v48 (((cfg2.win 0).blk t).view.emb (ix2 p k)) = _
  obtain ⟨e00, e01, -⟩ := idx_facts t
  refine congrArg (V c main_v48) (funext fun a => Fin.ext ?_)
  match a with
  | ⟨0, _⟩ => show win2_0.index t (0 : Fin 2) * 4000 + 1 * p.val = t.val * 4000 + p.val; omega
  | ⟨1, _⟩ => show win2_0.index t (1 : Fin 2) * 128 + 1 * k.val = k.val; omega

theorem read_cnt (c : Dev nD) (t : Fin cfg2.N) (p : Fin 4000) :
    iblk2 V c 1 t (ix2 p 0) = V c main_v8 (ix2 (row t p) 0) := by
  show V c main_v8 (((cfg2.win 1).blk t).view.emb (ix2 p 0)) = _
  obtain ⟨-, -, e10, e11, -⟩ := idx_facts t
  refine congrArg (V c main_v8) (funext fun a => Fin.ext ?_)
  match a with
  | ⟨0, _⟩ => show win2_1.index t (0 : Fin 2) * 4000 + 1 * p.val = t.val * 4000 + p.val; omega
  | ⟨1, _⟩ => show win2_1.index t (1 : Fin 2) * 1 + 1 * 0 = 0; omega

theorem read_h (c : Dev nD) (t : Fin cfg2.N) (p : Fin 4000) (k : Fin 128) :
    iblk2 V c 2 t (ix2 p k) = V c main_v38 (ix2 (row t p) k) := by
  show V c main_v38 (((cfg2.win 2).blk t).view.emb (ix2 p k)) = _
  obtain ⟨-, -, -, -, e20, e21, -⟩ := idx_facts t
  refine congrArg (V c main_v38) (funext fun a => Fin.ext ?_)
  match a with
  | ⟨0, _⟩ => show win2_2.index t (0 : Fin 2) * 4000 + 1 * p.val = t.val * 4000 + p.val; omega
  | ⟨1, _⟩ => show win2_2.index t (1 : Fin 2) * 128 + 1 * k.val = k.val; omega

theorem read_wl (c : Dev nD) (t : Fin cfg2.N) (k q : Fin 128) :
    iblk2 V c 3 t (ix2 k q) = V c main_v50 (ix2 k q) := by
  show V c main_v50 (((cfg2.win 3).blk t).view.emb (ix2 k q)) = _
  obtain ⟨-, -, -, -, -, -, e30, e31, -⟩ := idx_facts t
  refine congrArg (V c main_v50) (funext fun a => Fin.ext ?_)
  match a with
  | ⟨0, _⟩ => show win2_3.index t (0 : Fin 2) * 128 + 1 * k.val = k.val; omega
  | ⟨1, _⟩ => show win2_3.index t (1 : Fin 2) * 128 + 1 * q.val = q.val; omega

theorem read_wr (c : Dev nD) (t : Fin cfg2.N) (k q : Fin 128) :
    iblk2 V c 4 t (ix2 k q) = V c main_v52 (ix2 k q) := by
  show V c main_v52 (((cfg2.win 4).blk t).view.emb (ix2 k q)) = _
  obtain ⟨-, -, -, -, -, -, -, -, e40, e41, -⟩ := idx_facts t
  refine congrArg (V c main_v52) (funext fun a => Fin.ext ?_)
  match a with
  | ⟨0, _⟩ => show win2_4.index t (0 : Fin 2) * 128 + 1 * k.val = k.val; omega
  | ⟨1, _⟩ => show win2_4.index t (1 : Fin 2) * 128 + 1 * q.val = q.val; omega

theorem read_b (c : Dev nD) (t : Fin cfg2.N) (q : Fin 128) :
    iblk2 V c 5 t (ix1 q) = V c main_arg10 (ix1 q) := by
  show V c main_arg10 (((cfg2.win 5).blk t).view.emb (ix1 q)) = _
  obtain ⟨-, -, -, -, -, -, -, -, -, -, e50, -⟩ := idx_facts t
  refine congrArg (V c main_arg10) (funext fun a => Fin.ext ?_)
  match a with
  | ⟨0, _⟩ => show win2_5.index t (0 : Fin 1) * 128 + 1 * q.val = q.val; omega

theorem emb_out (t : Fin cfg2.N) (p : Fin 4000) (q : Fin 128) :
    ((cfg2.win 6).blk t).view.emb (ix2 p q) = ix2 (row t p) q := by
  obtain ⟨-, -, -, -, -, -, -, -, -, -, -, e60, e61⟩ := idx_facts t
  refine funext fun a => Fin.ext ?_
  match a with
  | ⟨0, _⟩ => show win2_6.index t (0 : Fin 2) * 4000 + 1 * p.val = t.val * 4000 + p.val; omega
  | ⟨1, _⟩ => show win2_6.index t (1 : Fin 2) * 128 + 1 * q.val = q.val; omega

/-! ## What a point writes back, the cover, and the array -/

/-- Point `t` writes back block `t` of the layer of the arrays the region found. -/
theorem flushed_eq (c : Dev nD) (t : Fin cfg2.N) :
    (dat2 V c).flushed 6 t = ((cfg2.win 6).blk t).view.read (Elt Ideal) (Sage.layer false (V c main_v48) (fun r => V c main_v8 (ix2 r 0)) (V c main_v38) (V c main_v50) (V c main_v52) (V c main_arg10)) := by
  show (cfg2.win 6).cut (grid2.coords t) ((dat2 V c).after 6 t) = _
  rw [after2_6]
  unfold out2_6
  rw [View.canon_unit_zero hz2]
  simp only [View.ld_unit_zero (S := S4000x128) hz2, View.ld_unit_zero (S := S4000x1) hz2, View.ld_unit_zero (S := S128x128) hz2,
    View.ld_unit_zero (S := S128) hz1]
  funext j
  obtain ⟨p, q, rfl⟩ : ∃ (p : Fin 4000) (q : Fin 128), j = ix2 p q := ⟨j 0, j 1, eq_ix2 j⟩
  show k2_pay1 (F := Ideal) (iblk2 V c 1 t) (iblk2 V c 0 t) (iblk2 V c 2 t) (iblk2 V c 3 t) (iblk2 V c 4 t) (iblk2 V c 5 t) (ix2 p q)
      = (Sage.layer false (V c main_v48) (fun r => V c main_v8 (ix2 r 0)) (V c main_v38) (V c main_v50) (V c main_v52) (V c main_arg10)) (((cfg2.win 6).blk t).view.emb (ix2 p q))
  refine (Body.stored2_at (iblk2 V c 1 t) (iblk2 V c 0 t) (iblk2 V c 2 t) (iblk2 V c 3 t) (iblk2 V c 4 t) (iblk2 V c 5 t) p q).trans ?_
  rw [emb_out, Sage.layer_apply]
  unfold Sage.pre
  simp only [read_s, read_cnt, read_h, read_wl, read_wr, read_b]

/-- An index of the output array is in point `t`'s block iff each coordinate is in the block's range on its axis. -/
theorem mem_blk (t : Fin cfg2.N) (i : S100000x128.Idx) :
    i ∈ ((cfg2.win 6).blk t).view.set ↔ ∀ a : Fin 2, win2_6.index t a * S4000x128.size a ≤ (i a).val ∧ (i a).val < win2_6.index t a * S4000x128.size a + S4000x128.size a := by
  show i ∈ ((View.whole main_v53).slice (win2_6.rect t)).set ↔ _
  rw [View.set_slice_whole, Rect.mem_set_unit]
  exact Iff.rfl

/-- Every row of the array is in the block of the point its row number divided by 4000 names. -/
theorem cover (i : S100000x128.Idx) : ∃ t : Fin cfg2.N, (cfg2.win 6).flush t = true ∧ i ∈ ((cfg2.win 6).blk t).view.set := by
  have hi0 : (i 0).val < 100000 := (i 0).isLt
  have hi1 : (i 1).val < 128 := (i 1).isLt
  have hN : grid2.N = 25 := N_2
  have ht : (i 0).val / 4000 < grid2.N := by rw [hN]; omega
  obtain ⟨-, -, -, -, -, -, -, -, -, -, -, e60, e61⟩ := idx_facts (⟨(i 0).val / 4000, ht⟩ : Fin cfg2.N)
  refine ⟨⟨(i 0).val / 4000, ht⟩, flush2_6 _, ?_⟩
  rw [mem_blk]
  intro a
  have e60' : win2_6.index (⟨(i 0).val / 4000, ht⟩ : Fin cfg2.N) (0 : Fin 2) = (i 0).val / 4000 := e60
  match a with
  | ⟨0, _⟩ =>
    show win2_6.index _ (0 : Fin 2) * 4000 ≤ (i 0).val ∧ (i 0).val < win2_6.index _ (0 : Fin 2) * 4000 + 4000
    rw [e60']; omega
  | ⟨1, _⟩ =>
    show win2_6.index _ (1 : Fin 2) * 128 ≤ (i 1).val ∧ (i 1).val < win2_6.index _ (1 : Fin 2) * 128 + 128
    rw [e61]; omega

/-- THE OUTPUT ARRAY when the region ends: the layer of the six arrays the region found at its entry. -/
theorem value (c : Dev nD) : (dat2 V c).arrAt 6 cfg2.N = (Sage.layer false (V c main_v48) (fun r => V c main_v8 (ix2 r 0)) (V c main_v38) (V c main_v50) (V c main_v52) (V c main_arg10)) :=
  (dat2 V c).arrAt_eq_of_cover 6 _ (fun t _ => flushed_eq V c t) cover

end Cert.KernelIdeal.Region2

end
-- ==== Proof.Net.lean ====
/-
  The whole network: three layers, each fed the previous layer's output as its node features and the neighbour sums
  of that output (`A`, one function of a feature array: both programs take the sums the same way in every layer),
  with one count per node shared by the three layers. The first two layers are rectified, the last is not.
-/
import proofs.«103460_j16999480557861_1_alg».proof.Proof.Layer

noncomputable section

namespace Cert.Sage

open Idealize.ShloMosaic

/-- The three layers composed. -/
def net (A : ((⟨2, ![100000, 128]⟩ : Shape).Idx → EReal) → (⟨2, ![100000, 128]⟩ : Shape).Idx → EReal) (cnt : Fin 100000 → EReal)
    (x : (⟨2, ![100000, 128]⟩ : Shape).Idx → EReal)
    (wl1 wr1 : (⟨2, ![128, 128]⟩ : Shape).Idx → EReal) (b1 : (⟨1, ![128]⟩ : Shape).Idx → EReal)
    (wl2 wr2 : (⟨2, ![128, 128]⟩ : Shape).Idx → EReal) (b2 : (⟨1, ![128]⟩ : Shape).Idx → EReal)
    (wl3 wr3 : (⟨2, ![128, 128]⟩ : Shape).Idx → EReal) (b3 : (⟨1, ![128]⟩ : Shape).Idx → EReal) :
    (⟨2, ![100000, 128]⟩ : Shape).Idx → EReal :=
  layer false (A (layer true (A (layer true (A x) cnt x wl1 wr1 b1)) cnt (layer true (A x) cnt x wl1 wr1 b1) wl2 wr2 b2)) cnt
    (layer true (A (layer true (A x) cnt x wl1 wr1 b1)) cnt (layer true (A x) cnt x wl1 wr1 b1) wl2 wr2 b2) wl3 wr3 b3

end Cert.Sage

end
-- ==== Proof.Stretch.lean ====
/-
  The host operations between the regions, read as values, and the kernel's result as three layers.

  Before each region the program gathers the rows of the current node features at the edges' sources (a negative
  source wraps around by 100000), adds them into the rows of the edges' destinations (the neighbour sums), transposes
  the layer's two weight matrices and narrows their format; before the first region it also counts, once, the edges
  into each node. None of this depends on which layer it is, so it is carried here as four functions that are never
  opened: `agg` (neighbour sums of a feature array along the edges), `counts`, `wT` (a weight matrix laid out
  contraction axis first) and the two rows of the edge array. Each region's entry contents are these functions of the
  previous region's output, and a region's output is the layer of its entry contents; so the result is the third layer
  of the second of the first.
-/
import proofs.«103460_j16999480557861_1_alg».proof.Proof.FrameKernelIdealP
import proofs.«103460_j16999480557861_1_alg».proof.Proof.Region0
import proofs.«103460_j16999480557861_1_alg».proof.Proof.Region1
import proofs.«103460_j16999480557861_1_alg».proof.Proof.Region2
import proofs.«103460_j16999480557861_1_alg».proof.Proof.Net
import Idealize.ShloMosaic.Lib.StableHlo.Run

set_option maxRecDepth 16384

noncomputable section

namespace Cert.KernelIdeal.Stretch

open Cert.KernelIdeal Cert.KernelIdeal.Gen Cert.KernelIdeal.GenP
open Idealize.ShloMosaic Idealize.ShloMosaic.TcCoe Idealize.SL.Sem Idealize.ShloMosaic.StableHlo
open Idealize.ShloMosaic.ValueIdx

/-! ## The shared host chain, as functions that are never opened -/

/-- The edges' source row. -/
def srcv (e : (⟨S2x1600000, .i32⟩ : BufTy).Contents (Elt Ideal)) : (⟨S1600000, .i32⟩ : BufTy).Contents (Elt Ideal) :=
  shapeCast _ (extractStridedSlice S1x1600000 ![0, 0] e slices_S2x1600000_S1x1600000_0_0) shapeCasts_S1x1600000_S1600000

/-- The edges' destination row. -/
def dstv (e : (⟨S2x1600000, .i32⟩ : BufTy).Contents (Elt Ideal)) : (⟨S1600000, .i32⟩ : BufTy).Contents (Elt Ideal) :=
  shapeCast _ (extractStridedSlice S1x1600000 ![1, 0] e slices_S2x1600000_S1x1600000_1_0) shapeCasts_S1x1600000_S1600000

/-- The neighbour sums of a feature array along the edges: its rows gathered at the sources (a negative source wrapped
    by 100000), added into the destinations' rows of a zero array. -/
def agg (h : (⟨S100000x128, .f32⟩ : BufTy).Contents (Elt Ideal)) (sv dv : (⟨S1600000, .i32⟩ : BufTy).Contents (Elt Ideal)) :
    (⟨S100000x128, .f32⟩ : BufTy).Contents (Elt Ideal) :=
  Host.scatterAdd (F := Ideal) scatter_S100000x128_S1600000x1_S1600000x128_1_0_0_1
    (broadcastInDim S100000x128 ![] bcast_S_S100000x128 (constant (F := Ideal) S_ .f32 0x00000000#32))
    (broadcastInDim S1600000x1 ![0] bcast_S1600000_S1600000x1_0 dv)
    (Host.gather gather_S100000x128_S1600000x1_S1600000x128_1_0_n_n_0_1_1128 h
      (broadcastInDim S1600000x1 ![0] bcast_S1600000_S1600000x1_0
        (select (cmpi .slt sv (broadcastInDim S1600000 ![] bcast_S_S1600000 (constantI S_ 32 0#32)))
          (addi sv (broadcastInDim S1600000 ![] bcast_S_S1600000 (constantI S_ 32 100000#32))) sv)))

/-- The number of edges into each node, as a column. -/
def counts (dv : (⟨S1600000, .i32⟩ : BufTy).Contents (Elt Ideal)) : (⟨S100000x1, .f32⟩ : BufTy).Contents (Elt Ideal) :=
  broadcastInDim S100000x1 ![0] bcast_S100000_S100000x1_0
    (Host.scatterAdd (F := Ideal) scatter_S100000_S1600000x1_S1600000_n_0_0_1
      (broadcastInDim S100000 ![] bcast_S_S100000 (constant (F := Ideal) S_ .f32 0x00000000#32))
      (broadcastInDim S1600000x1 ![0] bcast_S1600000_S1600000x1_0 dv)
      (broadcastInDim S1600000 ![] bcast_S_S1600000 (constant (F := Ideal) S_ .f32 0x3F800000#32)))

/-- A weight matrix laid out contraction axis first, its format narrowed. -/
def wT (w : FVec Ideal S128x128 .f32) : FVec Ideal S128x128 .bf16 :=
  truncf .bf16 (transpose S128x128 [1, 0] w transposes_S128x128_S128x128_1_0) bitsLt_bf16_f32

variable (m : (ℓ : Loc nD τ sig) → Buf (Elt Ideal) ℓ) (ρ : Dev nD → PrngReg) (c : Dev nD)

/-! ## The first stretch: from the launch memory to the first region's entry -/

theorem e1_src : W1 m ρ c (Proc.devRef .tc main_v1) = srcv (m ((c : Thread nD τ).loc main_arg1)) := by
  show StableHlo.after hostOps0 (W0 m ρ c) (Proc.devRef .tc main_v1) = _
  after_results_simp <;> rfl
theorem e1_dst : W1 m ρ c (Proc.devRef .tc main_v3) = dstv (m ((c : Thread nD τ).loc main_arg1)) := by
  show StableHlo.after hostOps0 (W0 m ρ c) (Proc.devRef .tc main_v3) = _
  after_results_simp <;> rfl
set_option maxHeartbeats 4000000 in
theorem e1_s : W1 m ρ c (Proc.devRef .tc main_v18) = agg (m ((c : Thread nD τ).loc main_arg0)) (srcv (m ((c : Thread nD τ).loc main_arg1))) (dstv (m ((c : Thread nD τ).loc main_arg1))) := by
  show StableHlo.after hostOps0 (W0 m ρ c) (Proc.devRef .tc main_v18) = _
  after_results_simp <;> rfl
theorem e1_cnt : W1 m ρ c (Proc.devRef .tc main_v8) = counts (dstv (m ((c : Thread nD τ).loc main_arg1))) := by
  show StableHlo.after hostOps0 (W0 m ρ c) (Proc.devRef .tc main_v8) = _
  after_results_simp <;> rfl
theorem e1_wl : W1 m ρ c (Proc.devRef .tc main_v20) = wT (m ((c : Thread nD τ).loc main_arg2)) := by
  show StableHlo.after hostOps0 (W0 m ρ c) (Proc.devRef .tc main_v20) = _
  after_results_simp <;> rfl
theorem e1_wr : W1 m ρ c (Proc.devRef .tc main_v22) = wT (m ((c : Thread nD τ).loc main_arg3)) := by
  show StableHlo.after hostOps0 (W0 m ρ c) (Proc.devRef .tc main_v22) = _
  after_results_simp <;> rfl
theorem e1_main_arg0 : W1 m ρ c (Proc.devRef .tc main_arg0) = (m ((c : Thread nD τ).loc main_arg0)) := by
  show StableHlo.after hostOps0 (W0 m ρ c) (Proc.devRef .tc main_arg0) = _
  after_results_simp <;> rfl
theorem e1_main_arg4 : W1 m ρ c (Proc.devRef .tc main_arg4) = (m ((c : Thread nD τ).loc main_arg4)) := by
  show StableHlo.after hostOps0 (W0 m ρ c) (Proc.devRef .tc main_arg4) = _
  after_results_simp <;> rfl
theorem e1_main_arg5 : W1 m ρ c (Proc.devRef .tc main_arg5) = (m ((c : Thread nD τ).loc main_arg5)) := by
  show StableHlo.after hostOps0 (W0 m ρ c) (Proc.devRef .tc main_arg5) = _
  after_results_simp <;> rfl
theorem e1_main_arg6 : W1 m ρ c (Proc.devRef .tc main_arg6) = (m ((c : Thread nD τ).loc main_arg6)) := by
  show StableHlo.after hostOps0 (W0 m ρ c) (Proc.devRef .tc main_arg6) = _
  after_results_simp <;> rfl
theorem e1_main_arg7 : W1 m ρ c (Proc.devRef .tc main_arg7) = (m ((c : Thread nD τ).loc main_arg7)) := by
  show StableHlo.after hostOps0 (W0 m ρ c) (Proc.devRef .tc main_arg7) = _
  after_results_simp <;> rfl
theorem e1_main_arg8 : W1 m ρ c (Proc.devRef .tc main_arg8) = (m ((c : Thread nD τ).loc main_arg8)) := by
  show StableHlo.after hostOps0 (W0 m ρ c) (Proc.devRef .tc main_arg8) = _
  after_results_simp <;> rfl
theorem e1_main_arg9 : W1 m ρ c (Proc.devRef .tc main_arg9) = (m ((c : Thread nD τ).loc main_arg9)) := by
  show StableHlo.after hostOps0 (W0 m ρ c) (Proc.devRef .tc main_arg9) = _
  after_results_simp <;> rfl
theorem e1_main_arg10 : W1 m ρ c (Proc.devRef .tc main_arg10) = (m ((c : Thread nD τ).loc main_arg10)) := by
  show StableHlo.after hostOps0 (W0 m ρ c) (Proc.devRef .tc main_arg10) = _
  after_results_simp <;> rfl

/-! ## The values the later boundaries hold -/

/-- The edges' sources and destinations, from the launch memory. -/
abbrev sv : (⟨S1600000, .i32⟩ : BufTy).Contents (Elt Ideal) := srcv (m ((c : Thread nD τ).loc main_arg1))
abbrev dv : (⟨S1600000, .i32⟩ : BufTy).Contents (Elt Ideal) := dstv (m ((c : Thread nD τ).loc main_arg1))

/-- The first layer's output. -/
def H1 : (⟨S100000x128, .f32⟩ : BufTy).Contents (Elt Ideal) :=
  Sage.layer true (agg (m ((c : Thread nD τ).loc main_arg0)) (sv m c) (dv m c)) (fun r => counts (dv m c) (ix2 r 0)) (m ((c : Thread nD τ).loc main_arg0))
    (wT (m ((c : Thread nD τ).loc main_arg2))) (wT (m ((c : Thread nD τ).loc main_arg3))) (m ((c : Thread nD τ).loc main_arg4))

/-- The second layer's output. -/
def H2 : (⟨S100000x128, .f32⟩ : BufTy).Contents (Elt Ideal) :=
  Sage.layer true (agg (H1 m c) (sv m c) (dv m c)) (fun r => counts (dv m c) (ix2 r 0)) (H1 m c)
    (wT (m ((c : Thread nD τ).loc main_arg5))) (wT (m ((c : Thread nD τ).loc main_arg6))) (m ((c : Thread nD τ).loc main_arg7))

/-! ### After the first region -/

theorem at2_v1 : W2 m ρ c (Proc.devRef .tc main_v1) = (sv m c) :=
  (W2_of_ne m ρ c main_v1 (by decide)).trans (e1_src m ρ c)
theorem at2_v3 : W2 m ρ c (Proc.devRef .tc main_v3) = (dv m c) :=
  (W2_of_ne m ρ c main_v3 (by decide)).trans (e1_dst m ρ c)
theorem at2_arg5 : W2 m ρ c (Proc.devRef .tc main_arg5) = (m ((c : Thread nD τ).loc main_arg5)) :=
  (W2_of_ne m ρ c main_arg5 (by decide)).trans (e1_main_arg5 m ρ c)
theorem at2_arg6 : W2 m ρ c (Proc.devRef .tc main_arg6) = (m ((c : Thread nD τ).loc main_arg6)) :=
  (W2_of_ne m ρ c main_arg6 (by decide)).trans (e1_main_arg6 m ρ c)
theorem at2_arg7 : W2 m ρ c (Proc.devRef .tc main_arg7) = (m ((c : Thread nD τ).loc main_arg7)) :=
  (W2_of_ne m ρ c main_arg7 (by decide)).trans (e1_main_arg7 m ρ c)
theorem at2_arg8 : W2 m ρ c (Proc.devRef .tc main_arg8) = (m ((c : Thread nD τ).loc main_arg8)) :=
  (W2_of_ne m ρ c main_arg8 (by decide)).trans (e1_main_arg8 m ρ c)
theorem at2_arg9 : W2 m ρ c (Proc.devRef .tc main_arg9) = (m ((c : Thread nD τ).loc main_arg9)) :=
  (W2_of_ne m ρ c main_arg9 (by decide)).trans (e1_main_arg9 m ρ c)
theorem at2_arg10 : W2 m ρ c (Proc.devRef .tc main_arg10) = (m ((c : Thread nD τ).loc main_arg10)) :=
  (W2_of_ne m ρ c main_arg10 (by decide)).trans (e1_main_arg10 m ρ c)
theorem at2_v8 : W2 m ρ c (Proc.devRef .tc main_v8) = counts (dv m c) :=
  ((W2_arr m ρ c 1).trans (((dat0 (V1 m ρ) c).arrAt_in 1 rfl _).trans (A_eq0 (V1 m ρ) c 1))).trans (e1_cnt m ρ c)
theorem at2_v23 : W2 m ρ c (Proc.devRef .tc main_v23) = H1 m c := by
  refine (W2_arr m ρ c 6).trans ((Region0.value (V1 m ρ) c).trans ?_)
  show Sage.layer true (W1 m ρ c (Proc.devRef .tc main_v18)) (fun r => W1 m ρ c (Proc.devRef .tc main_v8) (ix2 r 0)) (W1 m ρ c (Proc.devRef .tc main_arg0))
      (W1 m ρ c (Proc.devRef .tc main_v20)) (W1 m ρ c (Proc.devRef .tc main_v22)) (W1 m ρ c (Proc.devRef .tc main_arg4)) = _
  rw [e1_s, e1_cnt, e1_main_arg0, e1_wl, e1_wr, e1_main_arg4]
  rfl

/-! ### The second stretch -/

theorem at3_v1 : W3 m ρ c (Proc.devRef .tc main_v1) = (sv m c) :=
  (show StableHlo.after hostOps1 (W2 m ρ c) (Proc.devRef .tc main_v1) = W2 m ρ c (Proc.devRef .tc main_v1) by after_results_simp <;> rfl).trans (at2_v1 m ρ c)
theorem at3_v3 : W3 m ρ c (Proc.devRef .tc main_v3) = (dv m c) :=
  (show StableHlo.after hostOps1 (W2 m ρ c) (Proc.devRef .tc main_v3) = W2 m ρ c (Proc.devRef .tc main_v3) by after_results_simp <;> rfl).trans (at2_v3 m ρ c)
theorem at3_v8 : W3 m ρ c (Proc.devRef .tc main_v8) = counts (dv m c) :=
  (show StableHlo.after hostOps1 (W2 m ρ c) (Proc.devRef .tc main_v8) = W2 m ρ c (Proc.devRef .tc main_v8) by after_results_simp <;> rfl).trans (at2_v8 m ρ c)
theorem at3_v23 : W3 m ρ c (Proc.devRef .tc main_v23) = H1 m c :=
  (show StableHlo.after hostOps1 (W2 m ρ c) (Proc.devRef .tc main_v23) = W2 m ρ c (Proc.devRef .tc main_v23) by after_results_simp <;> rfl).trans (at2_v23 m ρ c)
theorem at3_arg7 : W3 m ρ c (Proc.devRef .tc main_arg7) = (m ((c : Thread nD τ).loc main_arg7)) :=
  (show StableHlo.after hostOps1 (W2 m ρ c) (Proc.devRef .tc main_arg7) = W2 m ρ c (Proc.devRef .tc main_arg7) by after_results_simp <;> rfl).trans (at2_arg7 m ρ c)
theorem at3_arg8 : W3 m ρ c (Proc.devRef .tc main_arg8) = (m ((c : Thread nD τ).loc main_arg8)) :=
  (show StableHlo.after hostOps1 (W2 m ρ c) (Proc.devRef .tc main_arg8) = W2 m ρ c (Proc.devRef .tc main_arg8) by after_results_simp <;> rfl).trans (at2_arg8 m ρ c)
theorem at3_arg9 : W3 m ρ c (Proc.devRef .tc main_arg9) = (m ((c : Thread nD τ).loc main_arg9)) :=
  (show StableHlo.after hostOps1 (W2 m ρ c) (Proc.devRef .tc main_arg9) = W2 m ρ c (Proc.devRef .tc main_arg9) by after_results_simp <;> rfl).trans (at2_arg9 m ρ c)
theorem at3_arg10 : W3 m ρ c (Proc.devRef .tc main_arg10) = (m ((c : Thread nD τ).loc main_arg10)) :=
  (show StableHlo.after hostOps1 (W2 m ρ c) (Proc.devRef .tc main_arg10) = W2 m ρ c (Proc.devRef .tc main_arg10) by after_results_simp <;> rfl).trans (at2_arg10 m ρ c)
set_option maxHeartbeats 4000000 in
theorem at3_v33 : W3 m ρ c (Proc.devRef .tc main_v33) = agg (H1 m c) (sv m c) (dv m c) :=
  (show StableHlo.after hostOps1 (W2 m ρ c) (Proc.devRef .tc main_v33) = agg (W2 m ρ c (Proc.devRef .tc main_v23)) (W2 m ρ c (Proc.devRef .tc main_v1)) (W2 m ρ c (Proc.devRef .tc main_v3))
    by after_results_simp <;> rfl).trans (by rw [at2_v23, at2_v1, at2_v3])
theorem at3_v35 : W3 m ρ c (Proc.devRef .tc main_v35) = wT (m ((c : Thread nD τ).loc main_arg5)) :=
  (show StableHlo.after hostOps1 (W2 m ρ c) (Proc.devRef .tc main_v35) = wT (W2 m ρ c (Proc.devRef .tc main_arg5)) by after_results_simp <;> rfl).trans (by rw [at2_arg5])
theorem at3_v37 : W3 m ρ c (Proc.devRef .tc main_v37) = wT (m ((c : Thread nD τ).loc main_arg6)) :=
  (show StableHlo.after hostOps1 (W2 m ρ c) (Proc.devRef .tc main_v37) = wT (W2 m ρ c (Proc.devRef .tc main_arg6)) by after_results_simp <;> rfl).trans (by rw [at2_arg6])

/-! ### After the second region -/

theorem at4_v1 : W4 m ρ c (Proc.devRef .tc main_v1) = (sv m c) :=
  (W4_of_ne m ρ c main_v1 (by decide)).trans (at3_v1 m ρ c)
theorem at4_v3 : W4 m ρ c (Proc.devRef .tc main_v3) = (dv m c) :=
  (W4_of_ne m ρ c main_v3 (by decide)).trans (at3_v3 m ρ c)
theorem at4_arg8 : W4 m ρ c (Proc.devRef .tc main_arg8) = (m ((c : Thread nD τ).loc main_arg8)) :=
  (W4_of_ne m ρ c main_arg8 (by decide)).trans (at3_arg8 m ρ c)
theorem at4_arg9 : W4 m ρ c (Proc.devRef .tc main_arg9) = (m ((c : Thread nD τ).loc main_arg9)) :=
  (W4_of_ne m ρ c main_arg9 (by decide)).trans (at3_arg9 m ρ c)
theorem at4_arg10 : W4 m ρ c (Proc.devRef .tc main_arg10) = (m ((c : Thread nD τ).loc main_arg10)) :=
  (W4_of_ne m ρ c main_arg10 (by decide)).trans (at3_arg10 m ρ c)
theorem at4_v8 : W4 m ρ c (Proc.devRef .tc main_v8) = counts (dv m c) :=
  ((W4_arr m ρ c 1).trans (((dat1 (V3 m ρ) c).arrAt_in 1 rfl _).trans (A_eq1 (V3 m ρ) c 1))).trans (at3_v8 m ρ c)
theorem at4_v38 : W4 m ρ c (Proc.devRef .tc main_v38) = H2 m c := by
  refine (W4_arr m ρ c 6).trans ((Region1.value (V3 m ρ) c).trans ?_)
  show Sage.layer true (W3 m ρ c (Proc.devRef .tc main_v33)) (fun r => W3 m ρ c (Proc.devRef .tc main_v8) (ix2 r 0)) (W3 m ρ c (Proc.devRef .tc main_v23))
      (W3 m ρ c (Proc.devRef .tc main_v35)) (W3 m ρ c (Proc.devRef .tc main_v37)) (W3 m ρ c (Proc.devRef .tc main_arg7)) = _
  rw [at3_v33, at3_v8, at3_v23, at3_v35, at3_v37, at3_arg7]
  rfl

/-! ### The third stretch -/

theorem at5_v8 : W5 m ρ c (Proc.devRef .tc main_v8) = counts (dv m c) :=
  (show StableHlo.after hostOps2 (W4 m ρ c) (Proc.devRef .tc main_v8) = W4 m ρ c (Proc.devRef .tc main_v8) by after_results_simp <;> rfl).trans (at4_v8 m ρ c)
theorem at5_v38 : W5 m ρ c (Proc.devRef .tc main_v38) = H2 m c :=
  (show StableHlo.after hostOps2 (W4 m ρ c) (Proc.devRef .tc main_v38) = W4 m ρ c (Proc.devRef .tc main_v38) by after_results_simp <;> rfl).trans (at4_v38 m ρ c)
theorem at5_arg10 : W5 m ρ c (Proc.devRef .tc main_arg10) = (m ((c : Thread nD τ).loc main_arg10)) :=
  (show StableHlo.after hostOps2 (W4 m ρ c) (Proc.devRef .tc main_arg10) = W4 m ρ c (Proc.devRef .tc main_arg10) by after_results_simp <;> rfl).trans (at4_arg10 m ρ c)
set_option maxHeartbeats 4000000 in
theorem at5_v48 : W5 m ρ c (Proc.devRef .tc main_v48) = agg (H2 m c) (sv m c) (dv m c) :=
  (show StableHlo.after hostOps2 (W4 m ρ c) (Proc.devRef .tc main_v48) = agg (W4 m ρ c (Proc.devRef .tc main_v38)) (W4 m ρ c (Proc.devRef .tc main_v1)) (W4 m ρ c (Proc.devRef .tc main_v3))
    by after_results_simp <;> rfl).trans (by rw [at4_v38, at4_v1, at4_v3])
theorem at5_v50 : W5 m ρ c (Proc.devRef .tc main_v50) = wT (m ((c : Thread nD τ).loc main_arg8)) :=
  (show StableHlo.after hostOps2 (W4 m ρ c) (Proc.devRef .tc main_v50) = wT (W4 m ρ c (Proc.devRef .tc main_arg8)) by after_results_simp <;> rfl).trans (by rw [at4_arg8])
theorem at5_v52 : W5 m ρ c (Proc.devRef .tc main_v52) = wT (m ((c : Thread nD τ).loc main_arg9)) :=
  (show StableHlo.after hostOps2 (W4 m ρ c) (Proc.devRef .tc main_v52) = wT (W4 m ρ c (Proc.devRef .tc main_arg9)) by after_results_simp <;> rfl).trans (by rw [at4_arg9])

/-! ## The result -/

/-- The result buffer ends at the network of the launch memory's arguments. -/
theorem result : W6 m ρ c (Proc.devRef .tc main_v53)
    = Sage.net (fun h => agg h (sv m c) (dv m c)) (fun r => counts (dv m c) (ix2 r 0)) (m ((c : Thread nD τ).loc main_arg0))
        (wT (m ((c : Thread nD τ).loc main_arg2))) (wT (m ((c : Thread nD τ).loc main_arg3))) (m ((c : Thread nD τ).loc main_arg4))
        (wT (m ((c : Thread nD τ).loc main_arg5))) (wT (m ((c : Thread nD τ).loc main_arg6))) (m ((c : Thread nD τ).loc main_arg7))
        (wT (m ((c : Thread nD τ).loc main_arg8))) (wT (m ((c : Thread nD τ).loc main_arg9))) (m ((c : Thread nD τ).loc main_arg10)) := by
  refine (W6_arr m ρ c 6).trans ((Region2.value (V5 m ρ) c).trans ?_)
  show Sage.layer false (W5 m ρ c (Proc.devRef .tc main_v48)) (fun r => W5 m ρ c (Proc.devRef .tc main_v8) (ix2 r 0)) (W5 m ρ c (Proc.devRef .tc main_v38))
      (W5 m ρ c (Proc.devRef .tc main_v50)) (W5 m ρ c (Proc.devRef .tc main_v52)) (W5 m ρ c (Proc.devRef .tc main_arg10)) = _
  rw [at5_v48, at5_v8, at5_v38, at5_v50, at5_v52, at5_arg10]
  rfl

end Cert.KernelIdeal.Stretch

end
-- ==== Proof.RefValue.lean ====
/-
  The reference, layer by layer.

  The reference computes a layer from the neighbour sums `S`, the count vector `cv`, the features `h`, the two weight
  matrices transposed and the bias `b` as  (S / spread (max cv 1)) · wl + h · wr + spread b, the clamp taken on the
  count vector before it is spread over the columns; read at row `r` and column `c` that is the specification's value:
  the quotient by the clamped count of row `r`, two sums over the 128 features, the bias at `c`. The neighbour sums
  (a gather along the edges' sources followed by an add into the destinations' rows) and the counts are the same
  chain of operations in every layer; they are named once here and never opened. Each of the reference's three
  stages is, by unfolding its name, this one term of the previous stage.
-/
import proofs.«103460_j16999480557861_1_alg».proof.Proof.Gen.ReferenceIdeal.Read
import proofs.«103460_j16999480557861_1_alg».proof.Proof.Layer
import Idealize.ShloMosaic.Lib.ValueIdx
import Idealize.ShloMosaic.Lib.Pipeline.Value
import Idealize.ShloMosaic.PureOps.Ideal.Laws

noncomputable section

namespace Cert.ReferenceIdeal.RefValue

open Cert.ReferenceIdeal Cert.ReferenceIdeal.Gen Cert.ReferenceIdeal.Read Idealize.ShloMosaic Idealize.ShloMosaic.ValueIdx

/-! ## The shared chain along the edges, never opened -/

/-- The edges' source row. -/
def srcv (e : (⟨S2x1600000, .i32⟩ : BufTy).Contents (Elt Ideal)) : (⟨S1600000, .i32⟩ : BufTy).Contents (Elt Ideal) :=
  shapeCast _ (extractStridedSlice S1x1600000 ![0, 0] e slices_S2x1600000_S1x1600000_0_0) shapeCasts_S1x1600000_S1600000

/-- The edges' destination row. -/
def dstv (e : (⟨S2x1600000, .i32⟩ : BufTy).Contents (Elt Ideal)) : (⟨S1600000, .i32⟩ : BufTy).Contents (Elt Ideal) :=
  shapeCast _ (extractStridedSlice S1x1600000 ![1, 0] e slices_S2x1600000_S1x1600000_1_0) shapeCasts_S1x1600000_S1600000

/-- The neighbour sums of a feature array along the edges. -/
def agg (h : (⟨S100000x128, .f32⟩ : BufTy).Contents (Elt Ideal)) (sv dv : (⟨S1600000, .i32⟩ : BufTy).Contents (Elt Ideal)) :
    (⟨S100000x128, .f32⟩ : BufTy).Contents (Elt Ideal) :=
  Host.scatterAdd (F := Ideal) scatter_S100000x128_S1600000x1_S1600000x128_1_0_0_1
    (broadcastInDim S100000x128 ![] bcast_S_S100000x128 (constant (F := Ideal) S_ .f32 0x00000000#32))
    (broadcastInDim S1600000x1 ![0] bcast_S1600000_S1600000x1_0 dv)
    (Host.gather gather_S100000x128_S1600000x1_S1600000x128_1_0_n_n_0_1_1128 h
      (broadcastInDim S1600000x1 ![0] bcast_S1600000_S1600000x1_0
        (select (cmpi .slt sv (broadcastInDim S1600000 ![] bcast_S_S1600000 (constantI S_ 32 0#32)))
          (addi sv (broadcastInDim S1600000 ![] bcast_S_S1600000 (constantI S_ 32 100000#32))) sv)))

/-- The number of edges into each node. -/
def countv (dv : (⟨S1600000, .i32⟩ : BufTy).Contents (Elt Ideal)) : (⟨S100000, .f32⟩ : BufTy).Contents (Elt Ideal) :=
  Host.scatterAdd (F := Ideal) scatter_S100000_S1600000x1_S1600000_n_0_0_1
    (broadcastInDim S100000 ![] bcast_S_S100000 (constant (F := Ideal) S_ .f32 0x00000000#32))
    (broadcastInDim S1600000x1 ![0] bcast_S1600000_S1600000x1_0 dv)
    (broadcastInDim S1600000 ![] bcast_S_S1600000 (constant (F := Ideal) S_ .f32 0x3F800000#32))

/-- A weight matrix laid out contraction axis first. -/
def tr (w : (⟨S128x128, .f32⟩ : BufTy).Contents (Elt Ideal)) : (⟨S128x128, .f32⟩ : BufTy).Contents (Elt Ideal) :=
  transpose S128x128 [1, 0] w transposes_S128x128_S128x128_1_0

/-! ## One layer as the reference computes it -/

/-- A layer before the rectifier, as the reference's operations compose. -/
def refPre (S : FVec Ideal S100000x128 .f32) (cv : FVec Ideal S100000 .f32) (h : FVec Ideal S100000x128 .f32)
    (wl wr : FVec Ideal S128x128 .f32) (b : FVec Ideal S128 .f32) : FVec Ideal S100000x128 .f32 :=
  addf (addf
      (Host.dotGeneral (F := Ideal) dot_S100000x128_S128x128_S100000x128_1_0_0_1_n_n none
        (Host.divf (F := Ideal) S (broadcastInDim S100000x128 ![0, 1] bcast_S100000x1_S100000x128_0_1
          (broadcastInDim S100000x1 ![0] bcast_S100000_S100000x1_0
            (maximumf cv (broadcastInDim S100000 ![] bcast_S_S100000 (constant (F := Ideal) S_ .f32 0x3F800000#32)))))) wl)
      (Host.dotGeneral (F := Ideal) dot_S100000x128_S128x128_S100000x128_1_0_0_1_n_n none h wr))
    (broadcastInDim S100000x128 ![0, 1] bcast_S1x128_S100000x128_0_1 (broadcastInDim S1x128 ![1] bcast_S128_S1x128_1 b))

/-- The reference's rectifier: the maximum with a zero array. -/
def refRelu (x : FVec Ideal S100000x128 .f32) : FVec Ideal S100000x128 .f32 :=
  maximumf x (broadcastInDim S100000x128 ![] bcast_S_S100000x128 (constant (F := Ideal) S_ .f32 0x00000000#32))

theorem lhs_at (r : Fin 100000) (c : Fin 128) (k : Fin 128) :
    dot_S100000x128_S128x128_S100000x128_1_0_0_1_n_n.lhsIdx (ix2 r c) ((contrEquiv1 dot_S100000x128_S128x128_S100000x128_1_0_0_1_n_n 128 rfl rfl).symm k) = ix2 r k := by
  have hk := contrEquiv1_symm_val dot_S100000x128_S128x128_S100000x128_1_0_0_1_n_n 128 rfl rfl k
  funext a
  apply Fin.ext
  match a with
  | ⟨0, _⟩ =>
    show (dot_S100000x128_S128x128_S100000x128_1_0_0_1_n_n.lhsIdx (ix2 r c) _ 0).val = r.val
    unfold DotDims.lhsIdx
    rw [dif_neg (show ¬(0 : Fin S100000x128.rank) ∈ dot_S100000x128_S128x128_S100000x128_1_0_0_1_n_n.lhsBatch by decide), dif_pos (show (0 : Fin S100000x128.rank) ∈ dot_S100000x128_S128x128_S100000x128_1_0_0_1_n_n.lhsNonContracting by decide)]
    rfl
  | ⟨1, _⟩ => exact (dot_S100000x128_S128x128_S100000x128_1_0_0_1_n_n.lhsIdx_val_of_single rfl (ix2 r c) _).trans hk

theorem rhs_at (r : Fin 100000) (c : Fin 128) (k : Fin 128) :
    dot_S100000x128_S128x128_S100000x128_1_0_0_1_n_n.rhsIdx (ix2 r c) ((contrEquiv1 dot_S100000x128_S128x128_S100000x128_1_0_0_1_n_n 128 rfl rfl).symm k) = ix2 k c := by
  have hk := contrEquiv1_symm_val dot_S100000x128_S128x128_S100000x128_1_0_0_1_n_n 128 rfl rfl k
  funext a
  apply Fin.ext
  match a with
  | ⟨0, _⟩ => exact (dot_S100000x128_S128x128_S100000x128_1_0_0_1_n_n.rhsIdx_val_of_single rfl (ix2 r c) _).trans hk
  | ⟨1, _⟩ =>
    show (dot_S100000x128_S128x128_S100000x128_1_0_0_1_n_n.rhsIdx (ix2 r c) _ 1).val = c.val
    unfold DotDims.rhsIdx
    rw [dif_neg (show ¬(1 : Fin S128x128.rank) ∈ dot_S100000x128_S128x128_S100000x128_1_0_0_1_n_n.rhsBatch by decide), dif_pos (show (1 : Fin S128x128.rank) ∈ dot_S100000x128_S128x128_S100000x128_1_0_0_1_n_n.rhsNonContracting by decide)]
    rfl

/-- The host's product of an array with a weight matrix at row `r`, column `c`: the sum over the 128 features. -/
theorem product_at (l : FVec Ideal S100000x128 .f32) (w : FVec Ideal S128x128 .f32) (r : Fin 100000) (c : Fin 128) :
    Host.dotGeneral (F := Ideal) dot_S100000x128_S128x128_S100000x128_1_0_0_1_n_n none l w (ix2 r c) = ∑ k : Fin 128, l (ix2 r k) * w (ix2 k c) := by
  simp only [Host.dotGeneral]
  rw [Ideal.dotGeneral_apply, ← Equiv.sum_comp (contrEquiv1 dot_S100000x128_S128x128_S100000x128_1_0_0_1_n_n 128 rfl rfl).symm]
  refine Finset.sum_congr rfl fun k _ => ?_
  rw [lhs_at, rhs_at]

/-- The clamped count vector spread over the columns reads, at row `r`, that row's clamped count. -/
theorem clamp_at (cv : FVec Ideal S100000 .f32) (r : Fin 100000) (k : Fin 128) :
    broadcastInDim S100000x128 ![0, 1] bcast_S100000x1_S100000x128_0_1
        (broadcastInDim S100000x1 ![0] bcast_S100000_S100000x1_0
          (maximumf cv (broadcastInDim S100000 ![] bcast_S_S100000 (constant (F := Ideal) S_ .f32 0x3F800000#32)))) (ix2 r k)
      = max (cv (ix1 r)) Sage.one := by
  rw [broadcastInDim_apply _ bcast_S100000x1_S100000x128_0_1 _ (ix2 r k) (ix2 r 0) (fun a => match a with
        | ⟨0, _⟩ => by show r.val = if (100000 : ℕ) = 1 then 0 else r.val; rw [if_neg (by decide)]
        | ⟨1, _⟩ => by show 0 = if (1 : ℕ) = 1 then 0 else k.val; rw [if_pos rfl]),
      broadcastInDim_apply _ bcast_S100000_S100000x1_0 _ (ix2 r 0) (ix1 r) (fun a => match a with
        | ⟨0, _⟩ => by show r.val = if (100000 : ℕ) = 1 then 0 else r.val; rw [if_neg (by decide)]),
      maximumf_apply,
      broadcastInDim_apply _ bcast_S_S100000 _ (ix1 r) ix0 (fun a => a.elim0)]
  rfl

/-- The neighbour sums divided by the spread clamped counts read, at row `r` and feature `k`, the quotient by row `r`'s clamped count. -/
theorem quot_at (S : FVec Ideal S100000x128 .f32) (cv : FVec Ideal S100000 .f32) (r : Fin 100000) (k : Fin 128) :
    Host.divf (F := Ideal) S (broadcastInDim S100000x128 ![0, 1] bcast_S100000x1_S100000x128_0_1
        (broadcastInDim S100000x1 ![0] bcast_S100000_S100000x1_0
          (maximumf cv (broadcastInDim S100000 ![] bcast_S_S100000 (constant (F := Ideal) S_ .f32 0x3F800000#32))))) (ix2 r k)
      = Ideal.div (S (ix2 r k)) (max (cv (ix1 r)) Sage.one) := by
  show Ideal.div (S (ix2 r k)) (broadcastInDim S100000x128 ![0, 1] bcast_S100000x1_S100000x128_0_1
        (broadcastInDim S100000x1 ![0] bcast_S100000_S100000x1_0
          (maximumf cv (broadcastInDim S100000 ![] bcast_S_S100000 (constant (F := Ideal) S_ .f32 0x3F800000#32)))) (ix2 r k)) = _
  rw [clamp_at]

/-- The bias spread over the rows reads, at column `c`, its `c`-th entry. -/
theorem bias_at (b : FVec Ideal S128 .f32) (r : Fin 100000) (c : Fin 128) :
    broadcastInDim S100000x128 ![0, 1] bcast_S1x128_S100000x128_0_1 (broadcastInDim S1x128 ![1] bcast_S128_S1x128_1 b) (ix2 r c) = b (ix1 c) := by
  rw [broadcastInDim_apply _ bcast_S1x128_S100000x128_0_1 _ (ix2 r c) (ix2 0 c) (fun a => match a with
        | ⟨0, _⟩ => by show 0 = if (1 : ℕ) = 1 then 0 else r.val; rw [if_pos rfl]
        | ⟨1, _⟩ => by show c.val = if (128 : ℕ) = 1 then 0 else c.val; rw [if_neg (by decide)]),
      broadcastInDim_apply _ bcast_S128_S1x128_1 _ (ix2 0 c) (ix1 c) (fun a => match a with
        | ⟨0, _⟩ => by show c.val = if (128 : ℕ) = 1 then 0 else c.val; rw [if_neg (by decide)])]

/-- The reference's layer before the rectifier is the specification's, entry by entry. -/
theorem refPre_eq (S : FVec Ideal S100000x128 .f32) (cv : FVec Ideal S100000 .f32) (h : FVec Ideal S100000x128 .f32)
    (wl wr : FVec Ideal S128x128 .f32) (b : FVec Ideal S128 .f32) :
    refPre S cv h wl wr b = Sage.layer false S (fun r => cv (ix1 r)) h wl wr b := by
  funext i
  obtain ⟨r, c, rfl⟩ : ∃ (r : Fin 100000) (c : Fin 128), i = ix2 r c := ⟨i 0, i 1, eq_ix2 i⟩
  rw [Sage.layer_apply, Sage.rect_false]
  unfold refPre Sage.pre
  rw [addf_apply, addf_apply, product_at, product_at, bias_at,
    Finset.sum_congr rfl (fun k _ => congrArg (· * wl (ix2 k c)) (quot_at S cv r k))]

/-- The rectified layer likewise. -/
theorem refRelu_eq (S : FVec Ideal S100000x128 .f32) (cv : FVec Ideal S100000 .f32) (h : FVec Ideal S100000x128 .f32)
    (wl wr : FVec Ideal S128x128 .f32) (b : FVec Ideal S128 .f32) :
    refRelu (refPre S cv h wl wr b) = Sage.layer true S (fun r => cv (ix1 r)) h wl wr b := by
  funext i
  obtain ⟨r, c, rfl⟩ : ∃ (r : Fin 100000) (c : Fin 128), i = ix2 r c := ⟨i 0, i 1, eq_ix2 i⟩
  have hp := congrFun (refPre_eq S cv h wl wr b) (ix2 r c)
  rw [Sage.layer_apply, Sage.rect_false] at hp
  rw [Sage.layer_apply, Sage.rect_true]
  unfold refRelu
  rw [maximumf_apply, hp, broadcastInDim_apply _ bcast_S_S100000x128 _ (ix2 r c) ix0 (fun a => a.elim0)]
  rfl

end Cert.ReferenceIdeal.RefValue

end
-- ==== Proof.RefStages.lean ====
/-
  The reference's three stages are the three layers.

  Unfolding the names of the reference's operations, the value before each rectifier is the generic layer term of
  the previous stage's value, with the neighbour sums and the counts taken by the shared chain along the edges; by
  the layer lemma each stage is then the specification's layer, and the result is the network.
-/
import proofs.«103460_j16999480557861_1_alg».proof.Proof.RefValue
import proofs.«103460_j16999480557861_1_alg».proof.Proof.Net

set_option maxRecDepth 16384

noncomputable section

namespace Cert.ReferenceIdeal.RefStages

open Cert.ReferenceIdeal Cert.ReferenceIdeal.Gen Cert.ReferenceIdeal.Read Cert.ReferenceIdeal.RefValue
open Idealize.ShloMosaic Idealize.ShloMosaic.ValueIdx

variable (x0 : (⟨S100000x128, .f32⟩ : BufTy).Contents (Elt Ideal)) (x1 : (⟨S2x1600000, .i32⟩ : BufTy).Contents (Elt Ideal)) (x2 x3 : (⟨S128x128, .f32⟩ : BufTy).Contents (Elt Ideal)) (x4 : (⟨S128, .f32⟩ : BufTy).Contents (Elt Ideal)) (x5 x6 : (⟨S128x128, .f32⟩ : BufTy).Contents (Elt Ideal)) (x7 : (⟨S128, .f32⟩ : BufTy).Contents (Elt Ideal)) (x8 x9 : (⟨S128x128, .f32⟩ : BufTy).Contents (Elt Ideal)) (x10 : (⟨S128, .f32⟩ : BufTy).Contents (Elt Ideal))

/-- The neighbour sums along the edges `x1`. -/
abbrev A (h : (⟨S100000x128, .f32⟩ : BufTy).Contents (Elt Ideal)) : (⟨S100000x128, .f32⟩ : BufTy).Contents (Elt Ideal) := agg h (srcv x1) (dstv x1)
/-- The count of edges into each node. -/
abbrev cnt (r : Fin 100000) : EReal := countv (dstv x1) (ix1 r)

theorem pre1 : val_main_v30 (F := Ideal) x0 x1 x2 x3 x4 = refPre (A x1 x0) (countv (dstv x1)) x0 (tr x2) (tr x3) x4 := rfl
theorem out1 : val_main_v31 (F := Ideal) x0 x1 x2 x3 x4 = Sage.layer true (A x1 x0) (cnt x1) x0 (tr x2) (tr x3) x4 :=
  (show val_main_v31 (F := Ideal) x0 x1 x2 x3 x4 = refRelu (val_main_v30 (F := Ideal) x0 x1 x2 x3 x4) from rfl).trans
    ((congrArg refRelu (pre1 x0 x1 x2 x3 x4)).trans (refRelu_eq _ _ _ _ _ _))

theorem pre2 : val_main_v58 (F := Ideal) x0 x1 x2 x3 x4 x5 x6 x7
    = refPre (A x1 (val_main_v31 (F := Ideal) x0 x1 x2 x3 x4)) (countv (dstv x1)) (val_main_v31 (F := Ideal) x0 x1 x2 x3 x4) (tr x5) (tr x6) x7 := rfl
theorem out2 : val_main_v59 (F := Ideal) x0 x1 x2 x3 x4 x5 x6 x7
    = Sage.layer true (A x1 (val_main_v31 (F := Ideal) x0 x1 x2 x3 x4)) (cnt x1) (val_main_v31 (F := Ideal) x0 x1 x2 x3 x4) (tr x5) (tr x6) x7 :=
  (show val_main_v59 (F := Ideal) x0 x1 x2 x3 x4 x5 x6 x7 = refRelu (val_main_v58 (F := Ideal) x0 x1 x2 x3 x4 x5 x6 x7) from rfl).trans
    ((congrArg refRelu (pre2 x0 x1 x2 x3 x4 x5 x6 x7)).trans (refRelu_eq _ _ _ _ _ _))

theorem pre3 : val_main_v86 (F := Ideal) x0 x1 x2 x3 x4 x5 x6 x7 x8 x9 x10
    = refPre (A x1 (val_main_v59 (F := Ideal) x0 x1 x2 x3 x4 x5 x6 x7)) (countv (dstv x1)) (val_main_v59 (F := Ideal) x0 x1 x2 x3 x4 x5 x6 x7) (tr x8) (tr x9) x10 := rfl

/-- The reference's result is the network of its arguments. -/
theorem result : val_main_v86 (F := Ideal) x0 x1 x2 x3 x4 x5 x6 x7 x8 x9 x10
    = Sage.net (A x1) (cnt x1) x0 (tr x2) (tr x3) x4 (tr x5) (tr x6) x7 (tr x8) (tr x9) x10 := by
  rw [pre3, refPre_eq, out2, out1]
  rfl

end Cert.ReferenceIdeal.RefStages

end
-- ==== Proof.ValueRun.lean ====
/-
  The idealized kernel's run with its result named.

  The program is six segments: three stretches of host operations, each followed by one region. Every weakly fair
  execution runs them in order from the launch memory and ends with every unscoped buffer of a core at the contents the
  last boundary of the fold gives it: each stretch applies its operations to the contents before it, each region
  leaves its arrays at what its write-backs fold to and every other buffer as it found it. The frame of the program
  reads the argument buffers off that final state; read the result buffer off it as well and the run says where
  the result ends: at the last region's output array, `W6 m ρ c` at the result's reference. The arguments end
  as launched, as in the frame.
-/
import proofs.«103460_j16999480557861_1_alg».proof.Proof.FrameKernelIdealP

set_option maxRecDepth 16384

noncomputable section

namespace Cert.KernelIdeal.ValueRun

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with the result buffer at the last
    boundary's contents and the argument buffers as launched. -/
theorem run : θ_run defs (onTc (τ := τ) (main (F := F))) ⟨m, fun _ => 0, ρ⟩ (fun r => ∀ c : Dev nD,
      r.2.mem ((c.tc : Thread nD τ).loc main_v53) = W6 m ρ c (Proc.devRef .tc main_v53)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v53 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c),
       (h c _ (mem_uc main_arg8 (by decide))).trans (W6_main_arg8 m ρ c),
       (h c _ (mem_uc main_arg9 (by decide))).trans (W6_main_arg9 m ρ c),
       (h c _ (mem_uc main_arg10 (by decide))).trans (W6_main_arg10 m ρ c)⟩)

end Cert.KernelIdeal.ValueRun

end
-- ==== Proof.Bridge.lean ====
/-
  The two results are one function of the arguments.

  The idealized kernel's result is the three-layer network with the neighbour sums, the counts and the weight layouts
  taken by its own host operations; the reference's result is the same network with its own. The two programs apply
  the same operations along the edges, so the neighbour sums, the edge rows and the transposed weights are the same
  functions (narrowing a weight matrix's format changes nothing on the extended reals), and the kernel's count column
  read at its one column is the reference's count vector read at the row. On memories that agree on the arguments the
  two networks are therefore equal, and both programs run to them.
-/
import proofs.«103460_j16999480557861_1_alg».proof.Proof.Stretch
import proofs.«103460_j16999480557861_1_alg».proof.Proof.RefStages
import proofs.«103460_j16999480557861_1_alg».proof.Proof.ValueRun
import proofs.«103460_j16999480557861_1_alg».proof.Proof.Gen.ReferenceIdeal.Run
import proofs.«103460_j16999480557861_1_alg».proof.Proof.Gen.ReferenceIdeal.Read
import proofs.«103460_j16999480557861_1_alg».proof.Proof.Gen.KernelIdeal
import proofs.«103460_j16999480557861_1_alg».proof.Proof.Gen.ReferenceIdeal
import proofs.«103460_j16999480557861_1_alg».proof.Proof.Gen.Pre_finite_inputs
import proofs.«103460_j16999480557861_1_alg».proof.Defs

set_option maxRecDepth 16384

noncomputable section

namespace Cert.Proof.Bridge

open Idealize.ShloMosaic Idealize.ShloMosaic.TcCoe Idealize.SL.Sem Idealize.ShloMosaic.ValueIdx

/-- The kernel's count column at its one column is the count vector at the row. -/
theorem counts_eq (dv : (⟨Cert.KernelIdeal.S1600000, .i32⟩ : BufTy).Contents (Elt Ideal)) (r : Fin 100000) :
    Cert.KernelIdeal.Stretch.counts dv (ix2 r 0) = Cert.ReferenceIdeal.RefValue.countv dv (ix1 r) := by
  unfold Cert.KernelIdeal.Stretch.counts
  exact broadcastInDim_apply _ _ _ (ix2 r 0) (ix1 r) (fun a => match a with
    | ⟨0, _⟩ => by show r.val = if (100000 : ℕ) = 1 then 0 else r.val; rw [if_neg (by decide)])

/-- On memories agreeing on the arguments, the kernel's result buffer ends at the reference's result term. -/
theorem value_eq (m : (ℓ : Loc Cert.KernelIdeal.nD Cert.KernelIdeal.τ Cert.KernelIdeal.sig) → Buf (Elt Ideal) ℓ) (ρ : Dev Cert.KernelIdeal.nD → PrngReg)
    (m' : (ℓ : Loc Cert.ReferenceIdeal.nD Cert.ReferenceIdeal.τ Cert.ReferenceIdeal.sig) → Buf (Elt Ideal) ℓ) (c : Dev Cert.KernelIdeal.nD)
    (hag : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) :
    Cert.KernelIdeal.GenP.W6 m ρ c (Proc.devRef .tc Cert.KernelIdeal.main_v53) = Cert.ReferenceIdeal.Value.res_main_v86 (F := Ideal) m' c := by
  refine (Cert.KernelIdeal.Stretch.result m ρ c).trans ?_
  refine Eq.trans ?_ ((Cert.ReferenceIdeal.Read.val_main_v86_eq (F := Ideal) m' c).trans (Cert.ReferenceIdeal.RefStages.result _ _ _ _ _ _ _ _ _ _ _)).symm
  obtain ⟨a0, a1, a2, a3, a4, a5, a6, a7, a8, a9, a10⟩ := hag
  rw [a0, a1, a2, a3, a4, a5, a6, a7, a8, a9, a10]
  rw [show (fun r : Fin 100000 => Cert.KernelIdeal.Stretch.counts (Cert.KernelIdeal.Stretch.dv m c) (ix2 r 0))
      = Cert.ReferenceIdeal.RefStages.cnt (m ((c.tc : Thread Cert.KernelIdeal.nD Cert.KernelIdeal.τ).loc Cert.KernelIdeal.main_arg1))
      from funext fun r => counts_eq _ r]
  rfl

/-- The algebraic claim: both idealized programs run, from memories agreeing on the arguments, to equal results. -/
theorem algebraic [hKernelIdeal : Cert.KernelIdeal.Facts] [hReferenceIdeal : Cert.ReferenceIdeal.Facts] [hPre_finite_inputs : Cert.Pre_finite_inputs.Facts] :
    Cert.algebraic_KernelIdeal_ReferenceIdeal := by
  intro m ρ m' ρ' _ hagree
  refine ⟨fun c => Cert.ReferenceIdeal.Value.res_main_v86 (F := Ideal) m' c, ?_, Cert.ReferenceIdeal.Value.run (F := Ideal) m' ρ'⟩
  exact (θ_run Cert.KernelIdeal.defs _ _).mono (fun r h c => ⟨(h c).1.trans (value_eq m ρ m' c (hagree c)), (h c).2⟩)
    (Cert.KernelIdeal.ValueRun.run (F := Ideal) m ρ)

end Cert.Proof.Bridge

end
-- ==== Proof.lean ====
/-
  The certificate of the three-layer graph network: the kernel (three tiled regions, one per layer, among host
  gathers and scatter-adds along the edges) against its plain reference, equal on the extended reals.

  A layer is  rect( (s / max(cnt, 1)) · Wlᵀ + h · Wrᵀ + b )  with s the sums of the neighbours' feature rows and cnt
  the neighbour counts; the kernel computes it block of 4000 rows by block, the reference on the whole array. Both
  take the neighbour sums and the counts by the same host operations, both group the two additions the same way, the
  kernel's narrowing of the matrix operands' format is the identity on the extended reals and a matrix product into a
  zero accumulator is the plain sum over the 128 features; so the two results are one function of the arguments, layer
  by layer, and no finiteness of the inputs is used. The ideal pass rewrote nothing, so the idealized kernel is the
  kernel's own text read on the extended reals. The three frames: each program runs, nothing faulting, and leaves its
  arguments as launched.
-/
import proofs.«103460_j16999480557861_1_alg».proof.Defs
import proofs.«103460_j16999480557861_1_alg».proof.Proof.Gen.Kernel
import proofs.«103460_j16999480557861_1_alg».proof.Proof.Gen.KernelIdeal
import proofs.«103460_j16999480557861_1_alg».proof.Proof.Gen.ReferenceIdeal
import proofs.«103460_j16999480557861_1_alg».proof.Proof.Gen.Pre_finite_inputs
import proofs.«103460_j16999480557861_1_alg».proof.Proof.Gen.ReferenceIdeal.Run
import proofs.«103460_j16999480557861_1_alg».proof.Proof.Gen.ReferenceIdeal.Read
import proofs.«103460_j16999480557861_1_alg».proof.Proof.FrameKernelP
import proofs.«103460_j16999480557861_1_alg».proof.Proof.FrameKernelIdealP
import proofs.«103460_j16999480557861_1_alg».proof.Proof.Bridge
import Idealize.ShloMosaic.Adequacy
import Idealize.ShloMosaic.Init

noncomputable section

namespace Cert.Proof

open Idealize.ShloMosaic Idealize.SL.Sem

theorem claim : Cert.Claim := ⟨Cert.Kernel.Gen.facts, Cert.KernelIdeal.Gen.facts, Cert.ReferenceIdeal.Gen.facts, Cert.Pre_finite_inputs.Gen.facts,
  fun m ρ _ => Cert.Kernel.GenP.frame m ρ,
  fun m ρ _ => Cert.KernelIdeal.GenP.frame m ρ,
  fun m ρ _ => (θ_run Cert.ReferenceIdeal.defs _ _).mono (fun _ h c => (h c).2) (Cert.ReferenceIdeal.Value.run (F := Ideal) m ρ),
  trivial,
  Cert.Proof.Bridge.algebraic⟩

end Cert.Proof

end
